-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x2048x256 .f32) (main_arg1 : FVec F S8x2048x2048 .f32) (main_arg2 : FVec F S256x256 .f32) (main_arg3 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S8x1x2048 : Shape := ⟨3, ![8, 1, 2048]⟩
abbrev S8x2048x1 : Shape := ⟨3, ![8, 2048, 1]⟩
abbrev S1x256x2048 : Shape := ⟨3, ![1, 256, 2048]⟩
abbrev S1x1x256 : Shape := ⟨3, ![1, 1, 256]⟩
abbrev S1x256x1 : Shape := ⟨3, ![1, 256, 1]⟩
abbrev S256x2048 : Shape := ⟨2, ![256, 2048]⟩
abbrev S1x256 : Shape := ⟨2, ![1, 256]⟩
abbrev S256x1 : Shape := ⟨2, ![256, 1]⟩
abbrev S1x2048x256 : Shape := ⟨3, ![1, 2048, 256]⟩
abbrev S1x256x256 : Shape := ⟨3, ![1, 256, 256]⟩
abbrev S1x1x2048 : Shape := ⟨3, ![1, 1, 2048]⟩
abbrev S2048x256 : Shape := ⟨2, ![2048, 256]⟩
abbrev S1x2048 : Shape := ⟨2, ![1, 2048]⟩

abbrev nBuf : Space → Nat
  | .hbm => 7
  | .vmem => 21
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S8x1x2048, .f32⟩
  | .hbm, ⟨5, _⟩ => ⟨S8x2048x1, .f32⟩
  | .hbm, ⟨6, _⟩ => ⟨S8x2048x256, .f32⟩
  | .local _ .vmem, ⟨0, _⟩ => ⟨S1x256x2048, .f32⟩
  | .local _ .vmem, ⟨1, _⟩ => ⟨S1x256x2048, .f32⟩
  | .local _ .vmem, ⟨2, _⟩ => ⟨S1x1x256, .f32⟩
  | .local _ .vmem, ⟨3, _⟩ => ⟨S1x1x256, .f32⟩
  | .local _ .vmem, ⟨4, _⟩ => ⟨S1x256x1, .f32⟩
  | .local _ .vmem, ⟨5, _⟩ => ⟨S1x256x1, .f32⟩
  | .local _ .vmem, ⟨6, _⟩ => ⟨S1x256x2048, .f32⟩
  | .local _ .vmem, ⟨7, _⟩ => ⟨S1x256x2048, .f32⟩
  | .local _ .vmem, ⟨8, _⟩ => ⟨S1x2048x256, .f32⟩
  | .local _ .vmem, ⟨9, _⟩ => ⟨S1x2048x256, .f32⟩
  | .local _ .vmem, ⟨10, _⟩ => ⟨S1x256x256, .f32⟩
  | .local _ .vmem, ⟨11, _⟩ => ⟨S1x256x256, .f32⟩
  | .local _ .vmem, ⟨12, _⟩ => ⟨S256x256, .f32⟩
  | .local _ .vmem, ⟨13, _⟩ => ⟨S256, .f32⟩
  | .local _ .vmem, ⟨14, _⟩ => ⟨S1x256x1, .f32⟩
  | .local _ .vmem, ⟨15, _⟩ => ⟨S1x256x1, .f32⟩
  | .local _ .vmem, ⟨16, _⟩ => ⟨S1x1x2048, .f32⟩
  | .local _ .vmem, ⟨17, _⟩ => ⟨S1x1x2048, .f32⟩
  | .local _ .vmem, ⟨18, _⟩ => ⟨S1x256x256, .f32⟩
  | .local _ .vmem, ⟨19, _⟩ => ⟨S1x256x256, .f32⟩
  | .local _ .vmem, ⟨20, _⟩ => ⟨S2048x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S256_S256_0 : ∀ a, (![0] : Fin 1 → Nat) a + S256.size a ≤ S256.size a
  h_S256 : 0 < S256.numel
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S256x1_S256x2048 : S256x1.Broadcasts S256x2048
  broadcasts_S1x2048_S256x2048 : S1x2048.Broadcasts S256x2048
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S2048x256_S256x256_S2048x256_1_0_0_1_n_n_wf : DotDims.WF S2048x256 S256x256 S2048x256 [1] [0] [0] [1] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .f32 = 32 ∨ (Rect.block (s := S8x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S8x1x2048.size a
  hwx0_1 : ∀ i : grid0.Coords, EltTy.bits .f32 = 32 ∨ (Rect.block (s := S8x1x2048) S1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x2048x1.size a
  hwx0_2 : ∀ i : grid0.Coords, EltTy.bits .f32 = 32 ∨ (Rect.block (s := S8x2048x1) S1x256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S8x2048x2048.size a
  hwx1_0 : ∀ i : grid1.Coords, EltTy.bits .f32 = 32 ∨ (Rect.block (s := S8x2048x2048) S1x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S8x2048x256.size a
  hwx1_1 : ∀ i : grid1.Coords, EltTy.bits .f32 = 32 ∨ (Rect.block (s := S8x2048x256) S1x2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x256.size a ≤ S8x2048x256.size a
  hwx1_2 : ∀ i : grid1.Coords, EltTy.bits .f32 = 32 ∨ (Rect.block (s := S8x2048x256) S1x256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1.size a ≤ S8x2048x1.size a
  hwx1_5 : ∀ i : grid1.Coords, EltTy.bits .f32 = 32 ∨ (Rect.block (s := S8x2048x1) S1x256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x2048.size a ≤ S8x1x2048.size a
  hwx1_6 : ∀ i : grid1.Coords, EltTy.bits .f32 = 32 ∨ (Rect.block (s := S8x1x2048) S1x1x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x256.size a ≤ S8x2048x256.size a
  hwx1_7 : ∀ i : grid1.Coords, EltTy.bits .f32 = 32 ∨ (Rect.block (s := S8x2048x256) S1x256x256.size (cc1_transform_7 i) (hinb1_7 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg1) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S1x256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_0) S1x1x2048.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x256x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S1x1x256 : Shape := ⟨3, ![1, 1, 256]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .i1⟩
  | .hbm, ⟨16, _⟩ => ⟨S_, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x1x2048, .f32⟩
  | .hbm, ⟨24, _⟩ => ⟨S8x2048x2048, .f32⟩
  | .hbm, ⟨25, _⟩ => ⟨S8x2048x2048, .f32⟩
  | .hbm, ⟨26, _⟩ => ⟨S8x2048x256, .f32⟩
  | .hbm, ⟨27, _⟩ => ⟨S1x1x256, .f32⟩
  | .hbm, ⟨28, _⟩ => ⟨S8x2048x256, .f32⟩
  | .hbm, ⟨29, _⟩ => ⟨S8x2048x256, .f32⟩
  | .hbm, ⟨30, _⟩ => ⟨S8x2048x256, .f32⟩
  | .hbm, ⟨31, _⟩ => ⟨S8x2048x256, .f32⟩
  | .hbm, ⟨32, _⟩ => ⟨S_, .f32⟩
  | .hbm, ⟨33, _⟩ => ⟨S8x2048x256, .f32⟩
  | .hbm, ⟨34, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v5 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call2_cst : Ref sig .tc := ⟨.hbm, 32, rfl⟩
abbrev main_call2_v0 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  dot_S8x2048x256_S256x256_S8x2048x256_2_1_01_0_n_n_wf : DotDims.WF S8x2048x256 S256x256 S8x2048x256 [2] [1] [0, 1] [0] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KbReg0.lean ====
/-
  The degree pass (the first of the two kernel launches) as a pipeline region, at any value family.

  A grid point (b, i) stages the 256 rows [256·i, 256·i+256) of batch b's adjacency matrix, all 2048 columns
  of them; the body reads that block once and stores the 256 normalisation factors of those rows twice: as a
  row [1, 1, 256] (for scaling columns later) and as a column [1, 256, 1] (for scaling rows).  Each output block
  is one whole store of a function of the input block, so what the body leaves in an output's staging buffer is
  that function of the block, and nothing is carried from one grid point to the next.
-/
import proofs.«157551_j25898652795458_2_alg».proof.Proof.Gen.Kernel.Launch
import proofs.«157551_j25898652795458_2_alg».proof.Proof.Gen.Kernel.Skeleton
import proofs.«157551_j25898652795458_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter this region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rAdj : Rect S1x256x2048 := Rect.unit (s := S1x256x2048) ![0, 0, 0] S1x256x2048.size inb_S1x256x2048_S1x256x2048_0_0_0
abbrev rCol : Rect S1x1x256 := Rect.unit (s := S1x1x256) ![0, 0, 0] S1x1x256.size inb_S1x1x256_S1x1x256_0_0_0
abbrev rRow : Rect S1x256x1 := Rect.unit (s := S1x256x1) ![0, 0, 0] S1x256x1.size inb_S1x256x1_S1x256x1_0_0_0

/-! ## What the body leaves in each output window's buffer -/

/-- The row layout of the factors of the block's 256 rows: one whole store. -/
def out0_1 (x0 : Vec F S1x256x2048 .f32) : Vec F S1x1x256 .f32 :=
  View.canon [⟨rCol, k0_pay2 (View.ld x0 rAdj)⟩]

/-- The column layout of the same factors: one whole store. -/
def out0_2 (x0 : Vec F S1x256x2048 .f32) : Vec F S1x256x1 .f32 :=
  View.canon [⟨rRow, k0_pay3 (View.ld x0 rAdj)⟩]

theorem cover0_1 (p0 : Vec F S1x1x256 .f32) (y : S1x1x256.Idx) :
    ∃ pc ∈ ([⟨rCol, p0⟩] : List (View.Piece (Elt F) S1x1x256 .f32)), y ∈ pc.1.set :=
  View.cover_of_tiled [⟨rCol, p0⟩] S1x1x256.size (by rfl) y

theorem cover0_2 (p0 : Vec F S1x256x1 .f32) (y : S1x256x1.Idx) :
    ∃ pc ∈ ([⟨rRow, p0⟩] : List (View.Piece (Elt F) S1x256x1 .f32)), y ∈ pc.1.set :=
  View.cover_of_tiled [⟨rRow, p0⟩] S1x256x1.size (by rfl) y

/-! ## The body's triple -/

set_option maxHeartbeats 1000000 in
/-- The body on whole staging memrefs, the input's at contents `x0` and the outputs' at anything, runs to the
    continuation holding the input's as it was and each output's at its function of `x0`. -/
theorem sound_kernel0 (c : Dev nD) (E : Set ℕ) (i : grid0.Coords)
    (arg2 : Memref sig .tc .vmem S1x256x2048 .f32) (harg2 : arg2.IsWhole)
    (arg3 : Memref sig .tc .vmem S1x1x256 .f32) (harg3 : arg3.IsWhole)
    (arg4 : Memref sig .tc .vmem S1x256x1 .f32) (harg4 : arg4.IsWhole)
    (x0 : Vec F S1x256x2048 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (out0_1 x0) ∗ owns (c : Thread nD τ) arg4 fullShare (out0_2 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The region's proof data -/

/-- The arrays as the region finds them; after the body at point `t` the input's buffer at its block and each
    output's at its function of that block; nothing kept between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KbReg1Body.lean ====
/-
  The main pass (the second kernel launch) as a pipeline region: the kernel body's two cases.

  A grid point (b, i) stages: rows [256·i, 256·i+256) of batch b's adjacency matrix; ALL of batch b's features
  (fetched when i = 0 only: its block index does not depend on i); the same 256 rows of the features again (the
  residual); the weights and the bias (fetched once); the column of row factors of those rows; the row of all
  2048 column factors of the batch.  When i = 0 the body first fills a scratch buffer with the linear layer of
  the whole batch, features · weightsᵀ + bias; at every point it then scales the adjacency block by its row and
  column factors, multiplies it with the scratch buffer, adds the residual rows and clamps at zero.
  So the scratch buffer is carried from a point to the next one of the same batch.
-/
import proofs.«157551_j25898652795458_2_alg».proof.Proof.Gen.Kernel.Launch
import proofs.«157551_j25898652795458_2_alg».proof.Proof.Gen.Kernel.Skeleton
import proofs.«157551_j25898652795458_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev qAdj : Rect S1x256x2048 := Rect.unit (s := S1x256x2048) ![0, 0, 0] S1x256x2048.size inb_S1x256x2048_S1x256x2048_0_0_0
abbrev qXf : Rect S1x2048x256 := Rect.unit (s := S1x2048x256) ![0, 0, 0] S1x2048x256.size inb_S1x2048x256_S1x2048x256_0_0_0
abbrev qXt : Rect S1x256x256 := Rect.unit (s := S1x256x256) ![0, 0, 0] S1x256x256.size inb_S1x256x256_S1x256x256_0_0_0
abbrev qW : Rect S256x256 := Rect.unit (s := S256x256) ![0, 0] S256x256.size inb_S256x256_S256x256_0_0
abbrev qB : Rect S256 := Rect.unit (s := S256) ![0] S256.size inb_S256_S256_0
abbrev qDr : Rect S1x256x1 := Rect.unit (s := S1x256x1) ![0, 0, 0] S1x256x1.size inb_S1x256x1_S1x256x1_0_0_0
abbrev qDc : Rect S1x1x2048 := Rect.unit (s := S1x1x2048) ![0, 0, 0] S1x1x2048.size inb_S1x1x2048_S1x1x2048_0_0_0
abbrev qS : Rect S2048x256 := Rect.unit (s := S2048x256) ![0, 0] S2048x256.size inb_S2048x256_S2048x256_0_0

/-! ## The body's branch condition -/

/-- The condition of the body's one conditional: the second grid coordinate is zero. -/
abbrev cond1 (i : grid1.Coords) : Prop :=
  (Scalar.cmpi .ne (Scalar.extui (Scalar.cmpi .eq (BitVec.ofNat 32 (i 1).val) 0#32)) 0#32) = 1#1

/-- It holds at the first of a batch's eight points only — decided over the grid. -/
theorem hcond1 : ∀ t : Fin cfg1.N, cond1 (grid1.coords t) ↔ t.val % 8 = 0 :=
  (by decide +kernel : ∀ t : Fin grid1.N, cond1 (grid1.coords t) ↔ t.val % 8 = 0)

/-! ## What the body leaves -/

/-- The scratch buffer after a point that fills it: the linear layer of the whole batch, one whole store. -/
def scr1 (x1 : Vec F S1x2048x256 .f32) (x3 : Vec F S256x256 .f32) (x4 : Vec F S256 .f32) : Vec F S2048x256 .f32 :=
  View.canon [⟨qS, k1_pay1 (View.ld x1 qXf) (View.ld x3 qW) (View.ld x4 qB)⟩]

/-- The output block after a point, from the input blocks and the scratch buffer's contents: one whole store. -/
def out1_7 (x0 : Vec F S1x256x2048 .f32) (x5 : Vec F S1x256x1 .f32) (x6 : Vec F S1x1x2048 .f32) (s : Vec F S2048x256 .f32)
    (x2 : Vec F S1x256x256 .f32) : Vec F S1x256x256 .f32 :=
  View.canon [⟨qXt, k1_pay2 (View.ld x0 qAdj) (View.ld x5 qDr) (View.ld x6 qDc) (View.ld s qS) (View.ld x2 qXt)⟩]

theorem cover1_7 (p0 : Vec F S1x256x256 .f32) (y : S1x256x256.Idx) :
    ∃ pc ∈ ([⟨qXt, p0⟩] : List (View.Piece (Elt F) S1x256x256 .f32)), y ∈ pc.1.set :=
  View.cover_of_tiled [⟨qXt, p0⟩] S1x256x256.size (by rfl) y

theorem cover1_s (p0 : Vec F S2048x256 .f32) (y : S2048x256.Idx) :
    ∃ pc ∈ ([⟨qS, p0⟩] : List (View.Piece (Elt F) S2048x256 .f32)), y ∈ pc.1.set :=
  View.cover_of_tiled [⟨qS, p0⟩] S2048x256.size (by rfl) y

/-! ## The body's triple, case by case -/

set_option maxHeartbeats 2000000 in
/-- Away from a batch's first point: the scratch buffer is read, not written. -/
theorem sound_kernel1_B (c : Dev nD) (E : Set ℕ) (i : grid1.Coords) (hc : ¬cond1 i)
    (arg2 : Memref sig .tc .vmem S1x256x2048 .f32) (harg2 : arg2.IsWhole)
    (arg3 : Memref sig .tc .vmem S1x2048x256 .f32) (harg3 : arg3.IsWhole)
    (arg4 : Memref sig .tc .vmem S1x256x256 .f32) (harg4 : arg4.IsWhole)
    (arg5 : Memref sig .tc .vmem S256x256 .f32) (harg5 : arg5.IsWhole)
    (arg6 : Memref sig .tc .vmem S256 .f32) (harg6 : arg6.IsWhole)
    (arg7 : Memref sig .tc .vmem S1x256x1 .f32) (harg7 : arg7.IsWhole)
    (arg8 : Memref sig .tc .vmem S1x1x2048 .f32) (harg8 : arg8.IsWhole)
    (arg9 : Memref sig .tc .vmem S1x256x256 .f32) (harg9 : arg9.IsWhole)
    (arg10 : Memref sig .tc .vmem S2048x256 .f32) (harg10 : arg10.IsWhole)
    (x0 : Vec F S1x256x2048 .f32) (x1 : Vec F S1x2048x256 .f32) (x2 : Vec F S1x256x256 .f32) (x3 : Vec F S256x256 .f32)
    (x4 : Vec F S256 .f32) (x5 : Vec F S1x256x1 .f32) (x6 : Vec F S1x1x2048 .f32) (s : Vec F S2048x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ owns (c : Thread nD τ) arg10 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out1_7 x0 x5 x6 s x2)
            ∗ owns (c : Thread nD τ) arg10 fullShare s) -∗ K ⟨⟩))
      ⊢ wp frame (wpE (defs₀ (F := F)) Variants.none c none) E
          (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0; subst hf1; subst hf2; subst hf3; subst hf4; subst hf5; subst hf6; subst hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists f8; isplitr; · ipureintro; rfl
  iexact H8

set_option maxHeartbeats 2000000 in
/-- At a batch's first point: the scratch buffer is filled (whatever it held), then read back for the product. -/
theorem sound_kernel1_A (c : Dev nD) (E : Set ℕ) (i : grid1.Coords) (hc : cond1 i)
    (arg2 : Memref sig .tc .vmem S1x256x2048 .f32) (harg2 : arg2.IsWhole)
    (arg3 : Memref sig .tc .vmem S1x2048x256 .f32) (harg3 : arg3.IsWhole)
    (arg4 : Memref sig .tc .vmem S1x256x256 .f32) (harg4 : arg4.IsWhole)
    (arg5 : Memref sig .tc .vmem S256x256 .f32) (harg5 : arg5.IsWhole)
    (arg6 : Memref sig .tc .vmem S256 .f32) (harg6 : arg6.IsWhole)
    (arg7 : Memref sig .tc .vmem S1x256x1 .f32) (harg7 : arg7.IsWhole)
    (arg8 : Memref sig .tc .vmem S1x1x2048 .f32) (harg8 : arg8.IsWhole)
    (arg9 : Memref sig .tc .vmem S1x256x256 .f32) (harg9 : arg9.IsWhole)
    (arg10 : Memref sig .tc .vmem S2048x256 .f32) (harg10 : arg10.IsWhole)
    (x0 : Vec F S1x256x2048 .f32) (x1 : Vec F S1x2048x256 .f32) (x2 : Vec F S1x256x256 .f32) (x3 : Vec F S256x256 .f32)
    (x4 : Vec F S256 .f32) (x5 : Vec F S1x256x1 .f32) (x6 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out1_7 x0 x5 x6 (scr1 x1 x3 x4) x2)
            ∗ owns (c : Thread nD τ) arg10 fullShare (scr1 x1 x3 x4)) -∗ K ⟨⟩))
      ⊢ wp frame (wpE (defs₀ (F := F)) Variants.none c none) E
          (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_7 _)).trans ?_
    unfold out1_7
    have e : sound_kernel1_A.sl.v14 c arg3 arg5 arg6 arg10 f1 f3 f4
        = View.ld (scr1 (View.read (Elt F) arg3.view f1) (View.read (Elt F) arg5.view f3) (View.read (Elt F) arg6.view f4)) qS :=
      View.readCov_eq_canon_ld _ _ _ (cover1_s _)
    rw [e]; rfl
  iexists _; isplitr
  swap; · iexact H8
  ipureintro
  exact View.read_writes_eq_canon _ _ _ (cover1_s _)

end Cert.Kernel.Fr

end
-- ==== Proof.KbReg1.lean ====
/-
  The main pass as a pipeline region: its proof data and the body obligation at every grid point.

  The scratch buffer holds, after ANY point of batch b, the linear layer of batch b — filled at the batch's first
  point and left alone at the other seven.  Since the block of all of batch b's features, the weights and the bias
  are the same at every point of the batch, that is one function of the batch's first point, `t - t mod 8`.
  The features' array is staged twice (whole batch; 256 rows): the two windows hold it at complementary halves.
-/
import proofs.«157551_j25898652795458_2_alg».proof.Proof.Gen.Kernel.Launch
import proofs.«157551_j25898652795458_2_alg».proof.Proof.Gen.Kernel.Skeleton
import proofs.«157551_j25898652795458_2_alg».proof.Proof.Gen.Kernel.Points
import proofs.«157551_j25898652795458_2_alg».proof.Proof.KbReg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The carried scratch buffer -/

/-- The scratch operand: a whole scoped buffer of the kernel's own. -/
abbrev scM1 : Memref sig .tc .vmem S2048x256 .f32 := Memref.whole cc1_scratch0

/-- The first point of `t`'s batch. -/
def t0 (t : Fin cfg1.N) : Fin cfg1.N :=
  ⟨t.val / 8 * 8, by have h := lt_of_lt_of_eq t.isLt (show cfg1.N = 64 from N_1); have : cfg1.N = 64 := N_1; omega⟩

/-- The linear layer of the batch whose blocks point `u` stages. -/
def S1 (c : Dev nD) (u : Fin cfg1.N) : Vec F S2048x256 .f32 :=
  scr1 (iblk1 V c 1 u) (iblk1 V c 3 u) (iblk1 V c 4 u)

/-- What the scratch buffer holds after point `t`. -/
def Scr (c : Dev nD) (t : Fin cfg1.N) : Vec F S2048x256 .f32 := S1 V c (t0 t)

/-- The core's other scoped buffers that this launch does not stage (the first launch's staging buffers), each at
    anything, beside `X` for the scratch buffer. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X)

theorem scopedRest1_with (c : Dev nD) :
    (Pipeline.scopedRest (Ix := Unit) (Name := ℕ) (U := UR sig nD τ) (Lvl := ℕ) (Val := Elt F) spec1 c : sProp 𝕄)
      = restWith c iprop(∃ f : Buf (Elt F) ((c : Thread nD τ).loc cc1_scratch0), ((c : Thread nD τ).loc cc1_scratch0) ↦{fullShare} f) := by
  unfold restWith; rw [scopedRest1_eq]

/-- The region's invariant before position `n`: before the first point every scoped buffer at anything; afterwards
    the scratch buffer at what the point before left in it. The generator register rides along at some state. -/
def PhiS (c : Dev nD) : (n : ℕ) → n ≤ cfg1.N → sProp 𝕄
  | 0, _ => Pipeline.ΦA spec1 c
  | n + 1, hn => iprop(restWith c (owns (c : Thread nD τ) scM1 fullShare (Scr V c ⟨n, hn⟩)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1 fullShare (Scr V c ⟨n, hn⟩)) ∗ (∃ r, prngReg c r)) := rfl

theorem PhiS_pos (c : Dev nD) (n : ℕ) (h : n ≤ cfg1.N) (hz : n ≠ 0) :
    PhiS V c n h = iprop(restWith c (owns (c : Thread nD τ) scM1 fullShare (Scr V c ⟨n - 1, by omega⟩)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 5 t) (iblk1 V c 6 t) (Scr V c t) (iblk1 V c 2 t)
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 5 t) (iblk1 V c 6 t) (Scr V c t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point. At a batch's first point the scratch buffer comes in at anything and leaves at the
    batch's linear layer; at the other points it comes in at that (the point before is of the same batch) and
    leaves unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5, after1_6, after1_7]
  have hN : t.val < 64 := lt_of_lt_of_eq t.isLt (show cfg1.N = 64 from N_1)
  by_cases h0 : t.val % 8 = 0
  · have hc : cond1 (grid1.coords t) := (hcond1 t).mpr h0
    have hS : Scr V c t = S1 V c t := congrArg (S1 V c) (Fin.ext (by show t.val / 8 * 8 = t.val; omega))
    rw [show (⟨t.val, t.isLt⟩ : Fin cfg1.N) = t from rfl, hS]; unfold S1
    by_cases hz : t.val = 0
    · rw [PhiS_castSucc V c t, PhiS_zero V c _ _ hz]; unfold Pipeline.ΦA; rw [scopedRest1_with]; unfold restWith
      iintro ⟨⟨⟨B1, B2, B3, B4, B5, B6, ⟨%fs, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ _ hc _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists fs; rw [owns_whole]; iexact HS
      iintro ⟨H0, H1, H2, H3, H4, H5, H6, H7, HS⟩
      isplitl [B1 B2 B3 B4 B5 B6 HS Hg]
      · isplitl [B1 B2 B3 B4 B5 B6 HS]
        swap; · iexact Hg
        isplitl [B1]; · iexact B1
        isplitl [B2]; · iexact B2
        isplitl [B3]; · iexact B3
        isplitl [B4]; · iexact B4
        isplitl [B5]; · iexact B5
        isplitl [B6]; · iexact B6
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc V c t, PhiS_pos V c _ _ hz]; unfold restWith
      iintro ⟨⟨⟨B1, B2, B3, B4, B5, B6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ _ hc _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      iintro ⟨H0, H1, H2, H3, H4, H5, H6, H7, HS⟩
      isplitl [B1 B2 B3 B4 B5 B6 HS Hg]
      · isplitl [B1 B2 B3 B4 B5 B6 HS]
        swap; · iexact Hg
        isplitl [B1]; · iexact B1
        isplitl [B2]; · iexact B2
        isplitl [B3]; · iexact B3
        isplitl [B4]; · iexact B4
        isplitl [B5]; · iexact B5
        isplitl [B6]; · iexact B6
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc : ¬cond1 (grid1.coords t) := fun h => h0 ((hcond1 t).mp h)
    have hz : t.val ≠ 0 := fun e => h0 (by rw [e])
    rw [PhiS_castSucc V c t, PhiS_pos V c _ _ hz]; unfold restWith
    have hS : Scr V c ⟨t.val - 1, by omega⟩ = Scr V c t :=
      congrArg (S1 V c) (Fin.ext (by show (t.val - 1) / 8 * 8 = t.val / 8 * 8; omega))
    rw [show (⟨t.val, t.isLt⟩ : Fin cfg1.N) = t from rfl, hS]
    iintro ⟨⟨⟨B1, B2, B3, B4, B5, B6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ _ hc _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (Scr V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [B1 B2 B3 B4 B5 B6 HS Hg]
    · isplitl [B1 B2 B3 B4 B5 B6 HS]
      swap; · iexact Hg
      isplitl [B1]; · iexact B1
      isplitl [B2]; · iexact B2
      isplitl [B3]; · iexact B3
      isplitl [B4]; · iexact B4
      isplitl [B5]; · iexact B5
      isplitl [B6]; · iexact B6
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KbShare.lean ====
/-
  The main pass reads the features' array through two windows (the whole batch, and 256 rows of it).  The core
  holds ONE buffer behind both; on entry its full share is split into two complementary halves, one per window,
  and on exit the halves — which still hold the same contents, an input being never written — are joined again.
  All seven unscoped buffers of the core are arrays of this launch, so nothing bypasses it.
-/
import proofs.«157551_j25898652795458_2_alg».proof.Proof.Gen.Kernel.Launch
import proofs.«157551_j25898652795458_2_alg».proof.Proof.Gen.Kernel.Skeleton
import proofs.«157551_j25898652795458_2_alg».proof.Proof.Gen.Kernel.Points
import proofs.«157551_j25898652795458_2_alg».proof.Proof.KbReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's unscoped buffers, one by one. -/
theorem ucBufs_chain (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_arg3) ↦{fullShare} V main_arg3)
          ∗ (((c : Thread nD τ).loc main_v0_0) ↦{fullShare} V main_v0_0) ∗ (((c : Thread nD τ).loc main_v0_1) ↦{fullShare} V main_v0_1)
          ∗ (((c : Thread nD τ).loc main_v1) ↦{fullShare} V main_v1)) := by
  unfold unscopedBufs
  exact bigSep_eq_bigSepL_of_eq [main_arg0, main_arg1, main_arg2, main_arg3, main_v0_0, main_v0_1, main_v1] (by decide) (by decide) _

/-- The launch's arrays, window by window, each at the share the proof data holds it at. -/
theorem arrays1_chain (c : Dev nD) (dat : Dat τ (Elt F) Unit ℕ (UR sig nD τ) ℕ cfg1 c)
    (G : (w : Fin cfg1.W) → Buf (Elt F) ((cfg1.win w).arr.view.loc (c : Thread nD τ))) :
    (dat.arrays G : sProp 𝕄)
      = iprop((((c : Thread nD τ).loc main_arg1) ↦{dat.share 0} G 0) ∗ (((c : Thread nD τ).loc main_arg0) ↦{dat.share 1} G 1)
          ∗ (((c : Thread nD τ).loc main_arg0) ↦{dat.share 2} G 2) ∗ (((c : Thread nD τ).loc main_arg2) ↦{dat.share 3} G 3)
          ∗ (((c : Thread nD τ).loc main_arg3) ↦{dat.share 4} G 4) ∗ (((c : Thread nD τ).loc main_v0_1) ↦{dat.share 5} G 5)
          ∗ (((c : Thread nD τ).loc main_v0_0) ↦{dat.share 6} G 6) ∗ (((c : Thread nD τ).loc main_v1) ↦{dat.share 7} G 7)) := by
  unfold Dat.arrays
  rw [bigSep_W1]
  rw [(arr_whole1 0).set_eq_univ, (arr_whole1 1).set_eq_univ, (arr_whole1 3).set_eq_univ,
    (arr_whole1 4).set_eq_univ, (arr_whole1 5).set_eq_univ, (arr_whole1 6).set_eq_univ, (arr_whole1 7).set_eq_univ]

variable (V : (c : Dev nD) → (b : Ref sig .tc) → Buf (Elt F) ((c : Thread nD τ).loc b))

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

/-- ENTRY: every unscoped buffer at the entry contents makes the launch's arrays at their entry contents. -/
theorem split1 (c : Dev nD) :
    (unscopedBufs c (V c) : sProp 𝕄) ⊢ (dat1 V c).arrays ((dat1 V c).arrAt · 0) := by
  rw [ucBufs_chain, arrays1_chain, share1_0, share1_1, share1_2, share1_3, share1_4, share1_5, share1_6, share1_7]
  iintro ⟨Hx, Hadj, HW, Hb, Hdc, Hdr, Ho⟩
  ihave Hx2 := (pointsTo_share (PosShare.mem_left_op_right fullShare)).1 $$ Hx
  icases Hx2 with ⟨Hxl, Hxr⟩
  isplitl [Hadj]; · iexact Hadj
  isplitl [Hxl]; · iexact Hxl
  isplitl [Hxr]; · iexact Hxr
  isplitl [HW]; · iexact HW
  isplitl [Hb]; · iexact Hb
  isplitl [Hdr]; · iexact Hdr
  isplitl [Hdc]; · iexact Hdc
  iexact Ho

/-- EXIT: the arrays at what the launch leaves — every input as found, the output at its folded write-backs —
    make every unscoped buffer at contents `V'` that agree with that. -/
theorem join1 (c : Dev nD) (V' : (b : Ref sig .tc) → Buf (Elt F) ((c : Thread nD τ).loc b))
    (h0 : V' main_arg0 = V c main_arg0) (h1 : V' main_arg1 = V c main_arg1) (h2 : V' main_arg2 = V c main_arg2)
    (h3 : V' main_arg3 = V c main_arg3) (h4 : V' main_v0_0 = V c main_v0_0) (h5 : V' main_v0_1 = V c main_v0_1)
    (h6 : V' main_v1 = (dat1 V c).arrAt 7 cfg1.N) :
    ((dat1 V c).arrays ((dat1 V c).arrAt · cfg1.N) : sProp 𝕄) ⊢ unscopedBufs c V' := by
  rw [ucBufs_chain, arrays1_chain, share1_0, share1_1, share1_2, share1_3, share1_4, share1_5, share1_6, share1_7]
  rw [h0, h1, h2, h3, h4, h5, h6]
  rw [(dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl, (dat1 V c).arrAt_in 6 rfl]
  iintro ⟨Hadj, Hxl, Hxr, HW, Hb, Hdr, Hdc, Ho⟩
  ihave Hx := (pointsTo_share (PosShare.mem_left_op_right fullShare)).2 $$ [Hxl Hxr]
  · isplitl [Hxl]; · iexact Hxl
    iexact Hxr
  isplitl [Hx]; · iexact Hx
  isplitl [Hadj]; · iexact Hadj
  isplitl [HW]; · iexact HW
  isplitl [Hb]; · iexact Hb
  isplitl [Hdc]; · iexact Hdc
  isplitl [Hdr]; · iexact Hdr
  iexact Ho

end Cert.Kernel.Fr

end
-- ==== Proof.KbRun.lean ====
/-
  The whole program — the degree pass, then the main pass — run from the launch to the return, at any value family.

  Between the launch and the first pass every unscoped buffer holds its launch contents; the first pass leaves its
  two outputs (the factors as a row and as a column) at what its grid points wrote back; the second pass leaves the
  result array at what ITS grid points wrote back and every other buffer as it found it.  No pass writes an
  argument.  The run ends with the result named and the four arguments as launched.
-/
import proofs.«157551_j25898652795458_2_alg».proof.Proof.Gen.Kernel.Launch
import proofs.«157551_j25898652795458_2_alg».proof.Proof.Gen.Kernel.Skeleton
import proofs.«157551_j25898652795458_2_alg».proof.Proof.Gen.Kernel.Points
import proofs.«157551_j25898652795458_2_alg».proof.Proof.KbReg0
import proofs.«157551_j25898652795458_2_alg».proof.Proof.KbShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the first pass is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first pass: its arrays at what it leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second pass: the result array at what it leaves, every other buffer as entered. -/
def W2 (c : Dev nD) : Valuation τ sig (Elt F) :=
  Function.update (W1 m ρ c) (Proc.devRef .tc main_v1) ((dat1 (V1 m ρ) c).arrAt 7 cfg1.N)
theorem W2_out (c : Dev nD) : W2 m ρ c (Proc.devRef .tc main_v1) = (dat1 (V1 m ρ) c).arrAt 7 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b

/-! ### The arguments end as launched -/

theorem W2_main_arg0 (c : Dev nD) : W2 m ρ c (Proc.devRef .tc main_arg0) = m ((c : Thread nD τ).loc main_arg0) :=
  (W2_of_ne m ρ c main_arg0 (by decide)).trans ((W1_of_ne m ρ c main_arg0 (by decide)).trans rfl)
theorem W2_main_arg1 (c : Dev nD) : W2 m ρ c (Proc.devRef .tc main_arg1) = m ((c : Thread nD τ).loc main_arg1) :=
  (W2_of_ne m ρ c main_arg1 (by decide)).trans
    ((W1_arr m ρ c 0).trans (((dat0 (V0 m ρ) c).arrAt_in 0 rfl _).trans ((A_eq0 (V0 m ρ) c 0).trans rfl)))
theorem W2_main_arg2 (c : Dev nD) : W2 m ρ c (Proc.devRef .tc main_arg2) = m ((c : Thread nD τ).loc main_arg2) :=
  (W2_of_ne m ρ c main_arg2 (by decide)).trans ((W1_of_ne m ρ c main_arg2 (by decide)).trans rfl)
theorem W2_main_arg3 (c : Dev nD) : W2 m ρ c (Proc.devRef .tc main_arg3) = m ((c : Thread nD τ).loc main_arg3) :=
  (W2_of_ne m ρ c main_arg3 (by decide)).trans ((W1_of_ne m ρ c main_arg3 (by decide)).trans rfl)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The passes as segments -/

set_option backward.isDefEq.respectTransparency.types false in
/-- The degree pass: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main pass: entered from every unscoped buffer at `W1`, left at `W2`. All the core's unscoped buffers are
    its arrays; the features' buffer is dealt to its two windows on entry and joined on exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := split1 (V1 m ρ) c
    rw [Pipeline.unscopedBufs_held] at hsplit
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m ρ 1 c).Φ (Fin.last _) = PhiS (V1 m ρ) c cfg1.N (Nat.le_refl _) from rfl,
      PhiS_pos (V1 m ρ) c _ _ (by rw [show cfg1.N = 64 from N_1]; decide),
      show (Pipeline.scopedRest (Ix := Unit) (Name := ℕ) (U := UR sig nD τ) (Lvl := ℕ) (Val := Elt F) (Pipeline.pin (pcfgs (F := F)) adm 1).spec c : sProp 𝕄)
        = restWith c iprop(∃ f : Buf (Elt F) ((c : Thread nD τ).loc cc1_scratch0), ((c : Thread nD τ).loc cc1_scratch0) ↦{fullShare} f)
        from scopedRest1_with c]
    unfold restWith
    rw [owns_whole]
    iintro ⟨⟨B1, B2, B3, B4, B5, B6, HS⟩, Hp⟩
    isplitl [Hp]; · iexact Hp
    isplitr; · iempintro
    isplitl [B1]; · iexact B1
    isplitl [B2]; · iexact B2
    isplitl [B3]; · iexact B3
    isplitl [B4]; · iexact B4
    isplitl [B5]; · iexact B5
    isplitl [B6]; · iexact B6
    iexists _; iexact HS
  hexit c := by
    have hjoin := join1 (V1 m ρ) c (V2 m ρ c)
      (W2_of_ne m ρ c main_arg0 (by decide)) (W2_of_ne m ρ c main_arg1 (by decide)) (W2_of_ne m ρ c main_arg2 (by decide))
      (W2_of_ne m ρ c main_arg3 (by decide)) (W2_of_ne m ρ c main_v0_0 (by decide)) (W2_of_ne m ρ c main_v0_1 (by decide))
      (W2_out m ρ c)
    rw [Pipeline.unscopedBufs_held] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds the result array at what the main pass's grid points wrote back and every argument as launched. -/
theorem run_all : θ_run defs (onTc (τ := τ) (main (F := F))) ⟨m, fun _ => 0, ρ⟩ (fun r => ∀ c : Dev nD,
      r.2.mem ((c.tc : Thread nD τ).loc main_v1) = (dat1 (V1 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_out m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.Kernel.Fr

end
-- ==== Proof.KiReg0.lean ====
/-
  The degree pass (the first of the two kernel launches) as a pipeline region, at any value family.

  A grid point (b, i) stages the 256 rows [256·i, 256·i+256) of batch b's adjacency matrix, all 2048 columns
  of them; the body reads that block once and stores the 256 normalisation factors of those rows twice: as a
  row [1, 1, 256] (for scaling columns later) and as a column [1, 256, 1] (for scaling rows).  Each output block
  is one whole store of a function of the input block, so what the body leaves in an output's staging buffer is
  that function of the block, and nothing is carried from one grid point to the next.
-/
import proofs.«157551_j25898652795458_2_alg».proof.Proof.Gen.KernelIdeal.Launch
import proofs.«157551_j25898652795458_2_alg».proof.Proof.Gen.KernelIdeal.Skeleton
import proofs.«157551_j25898652795458_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter this region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rAdj : Rect S1x256x2048 := Rect.unit (s := S1x256x2048) ![0, 0, 0] S1x256x2048.size inb_S1x256x2048_S1x256x2048_0_0_0
abbrev rCol : Rect S1x1x256 := Rect.unit (s := S1x1x256) ![0, 0, 0] S1x1x256.size inb_S1x1x256_S1x1x256_0_0_0
abbrev rRow : Rect S1x256x1 := Rect.unit (s := S1x256x1) ![0, 0, 0] S1x256x1.size inb_S1x256x1_S1x256x1_0_0_0

/-! ## What the body leaves in each output window's buffer -/

/-- The row layout of the factors of the block's 256 rows: one whole store. -/
def out0_1 (x0 : Vec F S1x256x2048 .f32) : Vec F S1x1x256 .f32 :=
  View.canon [⟨rCol, k0_pay2 (View.ld x0 rAdj)⟩]

/-- The column layout of the same factors: one whole store. -/
def out0_2 (x0 : Vec F S1x256x2048 .f32) : Vec F S1x256x1 .f32 :=
  View.canon [⟨rRow, k0_pay3 (View.ld x0 rAdj)⟩]

theorem cover0_1 (p0 : Vec F S1x1x256 .f32) (y : S1x1x256.Idx) :
    ∃ pc ∈ ([⟨rCol, p0⟩] : List (View.Piece (Elt F) S1x1x256 .f32)), y ∈ pc.1.set :=
  View.cover_of_tiled [⟨rCol, p0⟩] S1x1x256.size (by rfl) y

theorem cover0_2 (p0 : Vec F S1x256x1 .f32) (y : S1x256x1.Idx) :
    ∃ pc ∈ ([⟨rRow, p0⟩] : List (View.Piece (Elt F) S1x256x1 .f32)), y ∈ pc.1.set :=
  View.cover_of_tiled [⟨rRow, p0⟩] S1x256x1.size (by rfl) y

/-! ## The body's triple -/

set_option maxHeartbeats 1000000 in
/-- The body on whole staging memrefs, the input's at contents `x0` and the outputs' at anything, runs to the
    continuation holding the input's as it was and each output's at its function of `x0`. -/
theorem sound_kernel0 (c : Dev nD) (E : Set ℕ) (i : grid0.Coords)
    (arg2 : Memref sig .tc .vmem S1x256x2048 .f32) (harg2 : arg2.IsWhole)
    (arg3 : Memref sig .tc .vmem S1x1x256 .f32) (harg3 : arg3.IsWhole)
    (arg4 : Memref sig .tc .vmem S1x256x1 .f32) (harg4 : arg4.IsWhole)
    (x0 : Vec F S1x256x2048 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (out0_1 x0) ∗ owns (c : Thread nD τ) arg4 fullShare (out0_2 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The region's proof data -/

/-- The arrays as the region finds them; after the body at point `t` the input's buffer at its block and each
    output's at its function of that block; nothing kept between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiReg1Body.lean ====
/-
  The main pass (the second kernel launch) as a pipeline region: the kernel body's two cases.

  A grid point (b, i) stages: rows [256·i, 256·i+256) of batch b's adjacency matrix; ALL of batch b's features
  (fetched when i = 0 only: its block index does not depend on i); the same 256 rows of the features again (the
  residual); the weights and the bias (fetched once); the column of row factors of those rows; the row of all
  2048 column factors of the batch.  When i = 0 the body first fills a scratch buffer with the linear layer of
  the whole batch, features · weightsᵀ + bias; at every point it then scales the adjacency block by its row and
  column factors, multiplies it with the scratch buffer, adds the residual rows and clamps at zero.
  So the scratch buffer is carried from a point to the next one of the same batch.
-/
import proofs.«157551_j25898652795458_2_alg».proof.Proof.Gen.KernelIdeal.Launch
import proofs.«157551_j25898652795458_2_alg».proof.Proof.Gen.KernelIdeal.Skeleton
import proofs.«157551_j25898652795458_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev qAdj : Rect S1x256x2048 := Rect.unit (s := S1x256x2048) ![0, 0, 0] S1x256x2048.size inb_S1x256x2048_S1x256x2048_0_0_0
abbrev qXf : Rect S1x2048x256 := Rect.unit (s := S1x2048x256) ![0, 0, 0] S1x2048x256.size inb_S1x2048x256_S1x2048x256_0_0_0
abbrev qXt : Rect S1x256x256 := Rect.unit (s := S1x256x256) ![0, 0, 0] S1x256x256.size inb_S1x256x256_S1x256x256_0_0_0
abbrev qW : Rect S256x256 := Rect.unit (s := S256x256) ![0, 0] S256x256.size inb_S256x256_S256x256_0_0
abbrev qB : Rect S256 := Rect.unit (s := S256) ![0] S256.size inb_S256_S256_0
abbrev qDr : Rect S1x256x1 := Rect.unit (s := S1x256x1) ![0, 0, 0] S1x256x1.size inb_S1x256x1_S1x256x1_0_0_0
abbrev qDc : Rect S1x1x2048 := Rect.unit (s := S1x1x2048) ![0, 0, 0] S1x1x2048.size inb_S1x1x2048_S1x1x2048_0_0_0
abbrev qS : Rect S2048x256 := Rect.unit (s := S2048x256) ![0, 0] S2048x256.size inb_S2048x256_S2048x256_0_0

/-! ## The body's branch condition -/

/-- The condition of the body's one conditional: the second grid coordinate is zero. -/
abbrev cond1 (i : grid1.Coords) : Prop :=
  (Scalar.cmpi .ne (Scalar.extui (Scalar.cmpi .eq (BitVec.ofNat 32 (i 1).val) 0#32)) 0#32) = 1#1

/-- It holds at the first of a batch's eight points only — decided over the grid. -/
theorem hcond1 : ∀ t : Fin cfg1.N, cond1 (grid1.coords t) ↔ t.val % 8 = 0 :=
  (by decide +kernel : ∀ t : Fin grid1.N, cond1 (grid1.coords t) ↔ t.val % 8 = 0)

/-! ## What the body leaves -/

/-- The scratch buffer after a point that fills it: the linear layer of the whole batch, one whole store. -/
def scr1 (x1 : Vec F S1x2048x256 .f32) (x3 : Vec F S256x256 .f32) (x4 : Vec F S256 .f32) : Vec F S2048x256 .f32 :=
  View.canon [⟨qS, k1_pay1 (View.ld x1 qXf) (View.ld x3 qW) (View.ld x4 qB)⟩]

/-- The output block after a point, from the input blocks and the scratch buffer's contents: one whole store. -/
def out1_7 (x0 : Vec F S1x256x2048 .f32) (x5 : Vec F S1x256x1 .f32) (x6 : Vec F S1x1x2048 .f32) (s : Vec F S2048x256 .f32)
    (x2 : Vec F S1x256x256 .f32) : Vec F S1x256x256 .f32 :=
  View.canon [⟨qXt, k1_pay2 (View.ld x0 qAdj) (View.ld x5 qDr) (View.ld x6 qDc) (View.ld s qS) (View.ld x2 qXt)⟩]

theorem cover1_7 (p0 : Vec F S1x256x256 .f32) (y : S1x256x256.Idx) :
    ∃ pc ∈ ([⟨qXt, p0⟩] : List (View.Piece (Elt F) S1x256x256 .f32)), y ∈ pc.1.set :=
  View.cover_of_tiled [⟨qXt, p0⟩] S1x256x256.size (by rfl) y

theorem cover1_s (p0 : Vec F S2048x256 .f32) (y : S2048x256.Idx) :
    ∃ pc ∈ ([⟨qS, p0⟩] : List (View.Piece (Elt F) S2048x256 .f32)), y ∈ pc.1.set :=
  View.cover_of_tiled [⟨qS, p0⟩] S2048x256.size (by rfl) y

/-! ## The body's triple, case by case -/

set_option maxHeartbeats 2000000 in
/-- Away from a batch's first point: the scratch buffer is read, not written. -/
theorem sound_kernel1_B (c : Dev nD) (E : Set ℕ) (i : grid1.Coords) (hc : ¬cond1 i)
    (arg2 : Memref sig .tc .vmem S1x256x2048 .f32) (harg2 : arg2.IsWhole)
    (arg3 : Memref sig .tc .vmem S1x2048x256 .f32) (harg3 : arg3.IsWhole)
    (arg4 : Memref sig .tc .vmem S1x256x256 .f32) (harg4 : arg4.IsWhole)
    (arg5 : Memref sig .tc .vmem S256x256 .f32) (harg5 : arg5.IsWhole)
    (arg6 : Memref sig .tc .vmem S256 .f32) (harg6 : arg6.IsWhole)
    (arg7 : Memref sig .tc .vmem S1x256x1 .f32) (harg7 : arg7.IsWhole)
    (arg8 : Memref sig .tc .vmem S1x1x2048 .f32) (harg8 : arg8.IsWhole)
    (arg9 : Memref sig .tc .vmem S1x256x256 .f32) (harg9 : arg9.IsWhole)
    (arg10 : Memref sig .tc .vmem S2048x256 .f32) (harg10 : arg10.IsWhole)
    (x0 : Vec F S1x256x2048 .f32) (x1 : Vec F S1x2048x256 .f32) (x2 : Vec F S1x256x256 .f32) (x3 : Vec F S256x256 .f32)
    (x4 : Vec F S256 .f32) (x5 : Vec F S1x256x1 .f32) (x6 : Vec F S1x1x2048 .f32) (s : Vec F S2048x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ owns (c : Thread nD τ) arg10 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out1_7 x0 x5 x6 s x2)
            ∗ owns (c : Thread nD τ) arg10 fullShare s) -∗ K ⟨⟩))
      ⊢ wp frame (wpE (defs₀ (F := F)) Variants.none c none) E
          (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0; subst hf1; subst hf2; subst hf3; subst hf4; subst hf5; subst hf6; subst hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists f8; isplitr; · ipureintro; rfl
  iexact H8

set_option maxHeartbeats 2000000 in
/-- At a batch's first point: the scratch buffer is filled (whatever it held), then read back for the product. -/
theorem sound_kernel1_A (c : Dev nD) (E : Set ℕ) (i : grid1.Coords) (hc : cond1 i)
    (arg2 : Memref sig .tc .vmem S1x256x2048 .f32) (harg2 : arg2.IsWhole)
    (arg3 : Memref sig .tc .vmem S1x2048x256 .f32) (harg3 : arg3.IsWhole)
    (arg4 : Memref sig .tc .vmem S1x256x256 .f32) (harg4 : arg4.IsWhole)
    (arg5 : Memref sig .tc .vmem S256x256 .f32) (harg5 : arg5.IsWhole)
    (arg6 : Memref sig .tc .vmem S256 .f32) (harg6 : arg6.IsWhole)
    (arg7 : Memref sig .tc .vmem S1x256x1 .f32) (harg7 : arg7.IsWhole)
    (arg8 : Memref sig .tc .vmem S1x1x2048 .f32) (harg8 : arg8.IsWhole)
    (arg9 : Memref sig .tc .vmem S1x256x256 .f32) (harg9 : arg9.IsWhole)
    (arg10 : Memref sig .tc .vmem S2048x256 .f32) (harg10 : arg10.IsWhole)
    (x0 : Vec F S1x256x2048 .f32) (x1 : Vec F S1x2048x256 .f32) (x2 : Vec F S1x256x256 .f32) (x3 : Vec F S256x256 .f32)
    (x4 : Vec F S256 .f32) (x5 : Vec F S1x256x1 .f32) (x6 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out1_7 x0 x5 x6 (scr1 x1 x3 x4) x2)
            ∗ owns (c : Thread nD τ) arg10 fullShare (scr1 x1 x3 x4)) -∗ K ⟨⟩))
      ⊢ wp frame (wpE (defs₀ (F := F)) Variants.none c none) E
          (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_7 _)).trans ?_
    unfold out1_7
    have e : sound_kernel1_A.sl.v14 c arg3 arg5 arg6 arg10 f1 f3 f4
        = View.ld (scr1 (View.read (Elt F) arg3.view f1) (View.read (Elt F) arg5.view f3) (View.read (Elt F) arg6.view f4)) qS :=
      View.readCov_eq_canon_ld _ _ _ (cover1_s _)
    rw [e]; rfl
  iexists _; isplitr
  swap; · iexact H8
  ipureintro
  exact View.read_writes_eq_canon _ _ _ (cover1_s _)

end Cert.KernelIdeal.Fr

end
-- ==== Proof.KiReg1.lean ====
/-
  The main pass as a pipeline region: its proof data and the body obligation at every grid point.

  The scratch buffer holds, after ANY point of batch b, the linear layer of batch b — filled at the batch's first
  point and left alone at the other seven.  Since the block of all of batch b's features, the weights and the bias
  are the same at every point of the batch, that is one function of the batch's first point, `t - t mod 8`.
  The features' array is staged twice (whole batch; 256 rows): the two windows hold it at complementary halves.
-/
import proofs.«157551_j25898652795458_2_alg».proof.Proof.Gen.KernelIdeal.Launch
import proofs.«157551_j25898652795458_2_alg».proof.Proof.Gen.KernelIdeal.Skeleton
import proofs.«157551_j25898652795458_2_alg».proof.Proof.Gen.KernelIdeal.Points
import proofs.«157551_j25898652795458_2_alg».proof.Proof.KiReg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The carried scratch buffer -/

/-- The scratch operand: a whole scoped buffer of the kernel's own. -/
abbrev scM1 : Memref sig .tc .vmem S2048x256 .f32 := Memref.whole cc1_scratch0

/-- The first point of `t`'s batch. -/
def t0 (t : Fin cfg1.N) : Fin cfg1.N :=
  ⟨t.val / 8 * 8, by have h := lt_of_lt_of_eq t.isLt (show cfg1.N = 64 from N_1); have : cfg1.N = 64 := N_1; omega⟩

/-- The linear layer of the batch whose blocks point `u` stages. -/
def S1 (c : Dev nD) (u : Fin cfg1.N) : Vec F S2048x256 .f32 :=
  scr1 (iblk1 V c 1 u) (iblk1 V c 3 u) (iblk1 V c 4 u)

/-- What the scratch buffer holds after point `t`. -/
def Scr (c : Dev nD) (t : Fin cfg1.N) : Vec F S2048x256 .f32 := S1 V c (t0 t)

/-- The core's other scoped buffers that this launch does not stage (the first launch's staging buffers), each at
    anything, beside `X` for the scratch buffer. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X)

theorem scopedRest1_with (c : Dev nD) :
    (Pipeline.scopedRest (Ix := Unit) (Name := ℕ) (U := UR sig nD τ) (Lvl := ℕ) (Val := Elt F) spec1 c : sProp 𝕄)
      = restWith c iprop(∃ f : Buf (Elt F) ((c : Thread nD τ).loc cc1_scratch0), ((c : Thread nD τ).loc cc1_scratch0) ↦{fullShare} f) := by
  unfold restWith; rw [scopedRest1_eq]

/-- The region's invariant before position `n`: before the first point every scoped buffer at anything; afterwards
    the scratch buffer at what the point before left in it. The generator register rides along at some state. -/
def PhiS (c : Dev nD) : (n : ℕ) → n ≤ cfg1.N → sProp 𝕄
  | 0, _ => Pipeline.ΦA spec1 c
  | n + 1, hn => iprop(restWith c (owns (c : Thread nD τ) scM1 fullShare (Scr V c ⟨n, hn⟩)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1 fullShare (Scr V c ⟨n, hn⟩)) ∗ (∃ r, prngReg c r)) := rfl

theorem PhiS_pos (c : Dev nD) (n : ℕ) (h : n ≤ cfg1.N) (hz : n ≠ 0) :
    PhiS V c n h = iprop(restWith c (owns (c : Thread nD τ) scM1 fullShare (Scr V c ⟨n - 1, by omega⟩)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 5 t) (iblk1 V c 6 t) (Scr V c t) (iblk1 V c 2 t)
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 5 t) (iblk1 V c 6 t) (Scr V c t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point. At a batch's first point the scratch buffer comes in at anything and leaves at the
    batch's linear layer; at the other points it comes in at that (the point before is of the same batch) and
    leaves unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5, after1_6, after1_7]
  have hN : t.val < 64 := lt_of_lt_of_eq t.isLt (show cfg1.N = 64 from N_1)
  by_cases h0 : t.val % 8 = 0
  · have hc : cond1 (grid1.coords t) := (hcond1 t).mpr h0
    have hS : Scr V c t = S1 V c t := congrArg (S1 V c) (Fin.ext (by show t.val / 8 * 8 = t.val; omega))
    rw [show (⟨t.val, t.isLt⟩ : Fin cfg1.N) = t from rfl, hS]; unfold S1
    by_cases hz : t.val = 0
    · rw [PhiS_castSucc V c t, PhiS_zero V c _ _ hz]; unfold Pipeline.ΦA; rw [scopedRest1_with]; unfold restWith
      iintro ⟨⟨⟨B1, B2, B3, B4, B5, B6, ⟨%fs, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ _ hc _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists fs; rw [owns_whole]; iexact HS
      iintro ⟨H0, H1, H2, H3, H4, H5, H6, H7, HS⟩
      isplitl [B1 B2 B3 B4 B5 B6 HS Hg]
      · isplitl [B1 B2 B3 B4 B5 B6 HS]
        swap; · iexact Hg
        isplitl [B1]; · iexact B1
        isplitl [B2]; · iexact B2
        isplitl [B3]; · iexact B3
        isplitl [B4]; · iexact B4
        isplitl [B5]; · iexact B5
        isplitl [B6]; · iexact B6
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc V c t, PhiS_pos V c _ _ hz]; unfold restWith
      iintro ⟨⟨⟨B1, B2, B3, B4, B5, B6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ _ hc _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      iintro ⟨H0, H1, H2, H3, H4, H5, H6, H7, HS⟩
      isplitl [B1 B2 B3 B4 B5 B6 HS Hg]
      · isplitl [B1 B2 B3 B4 B5 B6 HS]
        swap; · iexact Hg
        isplitl [B1]; · iexact B1
        isplitl [B2]; · iexact B2
        isplitl [B3]; · iexact B3
        isplitl [B4]; · iexact B4
        isplitl [B5]; · iexact B5
        isplitl [B6]; · iexact B6
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc : ¬cond1 (grid1.coords t) := fun h => h0 ((hcond1 t).mp h)
    have hz : t.val ≠ 0 := fun e => h0 (by rw [e])
    rw [PhiS_castSucc V c t, PhiS_pos V c _ _ hz]; unfold restWith
    have hS : Scr V c ⟨t.val - 1, by omega⟩ = Scr V c t :=
      congrArg (S1 V c) (Fin.ext (by show (t.val - 1) / 8 * 8 = t.val / 8 * 8; omega))
    rw [show (⟨t.val, t.isLt⟩ : Fin cfg1.N) = t from rfl, hS]
    iintro ⟨⟨⟨B1, B2, B3, B4, B5, B6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ _ hc _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (Scr V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [B1 B2 B3 B4 B5 B6 HS Hg]
    · isplitl [B1 B2 B3 B4 B5 B6 HS]
      swap; · iexact Hg
      isplitl [B1]; · iexact B1
      isplitl [B2]; · iexact B2
      isplitl [B3]; · iexact B3
      isplitl [B4]; · iexact B4
      isplitl [B5]; · iexact B5
      isplitl [B6]; · iexact B6
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KiShare.lean ====
/-
  The main pass reads the features' array through two windows (the whole batch, and 256 rows of it).  The core
  holds ONE buffer behind both; on entry its full share is split into two complementary halves, one per window,
  and on exit the halves — which still hold the same contents, an input being never written — are joined again.
  All seven unscoped buffers of the core are arrays of this launch, so nothing bypasses it.
-/
import proofs.«157551_j25898652795458_2_alg».proof.Proof.Gen.KernelIdeal.Launch
import proofs.«157551_j25898652795458_2_alg».proof.Proof.Gen.KernelIdeal.Skeleton
import proofs.«157551_j25898652795458_2_alg».proof.Proof.Gen.KernelIdeal.Points
import proofs.«157551_j25898652795458_2_alg».proof.Proof.KiReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's unscoped buffers, one by one. -/
theorem ucBufs_chain (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_arg3) ↦{fullShare} V main_arg3)
          ∗ (((c : Thread nD τ).loc main_v0_0) ↦{fullShare} V main_v0_0) ∗ (((c : Thread nD τ).loc main_v0_1) ↦{fullShare} V main_v0_1)
          ∗ (((c : Thread nD τ).loc main_v1) ↦{fullShare} V main_v1)) := by
  unfold unscopedBufs
  exact bigSep_eq_bigSepL_of_eq [main_arg0, main_arg1, main_arg2, main_arg3, main_v0_0, main_v0_1, main_v1] (by decide) (by decide) _

/-- The launch's arrays, window by window, each at the share the proof data holds it at. -/
theorem arrays1_chain (c : Dev nD) (dat : Dat τ (Elt F) Unit ℕ (UR sig nD τ) ℕ cfg1 c)
    (G : (w : Fin cfg1.W) → Buf (Elt F) ((cfg1.win w).arr.view.loc (c : Thread nD τ))) :
    (dat.arrays G : sProp 𝕄)
      = iprop((((c : Thread nD τ).loc main_arg1) ↦{dat.share 0} G 0) ∗ (((c : Thread nD τ).loc main_arg0) ↦{dat.share 1} G 1)
          ∗ (((c : Thread nD τ).loc main_arg0) ↦{dat.share 2} G 2) ∗ (((c : Thread nD τ).loc main_arg2) ↦{dat.share 3} G 3)
          ∗ (((c : Thread nD τ).loc main_arg3) ↦{dat.share 4} G 4) ∗ (((c : Thread nD τ).loc main_v0_1) ↦{dat.share 5} G 5)
          ∗ (((c : Thread nD τ).loc main_v0_0) ↦{dat.share 6} G 6) ∗ (((c : Thread nD τ).loc main_v1) ↦{dat.share 7} G 7)) := by
  unfold Dat.arrays
  rw [bigSep_W1]
  rw [(arr_whole1 0).set_eq_univ, (arr_whole1 1).set_eq_univ, (arr_whole1 3).set_eq_univ,
    (arr_whole1 4).set_eq_univ, (arr_whole1 5).set_eq_univ, (arr_whole1 6).set_eq_univ, (arr_whole1 7).set_eq_univ]

variable (V : (c : Dev nD) → (b : Ref sig .tc) → Buf (Elt F) ((c : Thread nD τ).loc b))

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

/-- ENTRY: every unscoped buffer at the entry contents makes the launch's arrays at their entry contents. -/
theorem split1 (c : Dev nD) :
    (unscopedBufs c (V c) : sProp 𝕄) ⊢ (dat1 V c).arrays ((dat1 V c).arrAt · 0) := by
  rw [ucBufs_chain, arrays1_chain, share1_0, share1_1, share1_2, share1_3, share1_4, share1_5, share1_6, share1_7]
  iintro ⟨Hx, Hadj, HW, Hb, Hdc, Hdr, Ho⟩
  ihave Hx2 := (pointsTo_share (PosShare.mem_left_op_right fullShare)).1 $$ Hx
  icases Hx2 with ⟨Hxl, Hxr⟩
  isplitl [Hadj]; · iexact Hadj
  isplitl [Hxl]; · iexact Hxl
  isplitl [Hxr]; · iexact Hxr
  isplitl [HW]; · iexact HW
  isplitl [Hb]; · iexact Hb
  isplitl [Hdr]; · iexact Hdr
  isplitl [Hdc]; · iexact Hdc
  iexact Ho

/-- EXIT: the arrays at what the launch leaves — every input as found, the output at its folded write-backs —
    make every unscoped buffer at contents `V'` that agree with that. -/
theorem join1 (c : Dev nD) (V' : (b : Ref sig .tc) → Buf (Elt F) ((c : Thread nD τ).loc b))
    (h0 : V' main_arg0 = V c main_arg0) (h1 : V' main_arg1 = V c main_arg1) (h2 : V' main_arg2 = V c main_arg2)
    (h3 : V' main_arg3 = V c main_arg3) (h4 : V' main_v0_0 = V c main_v0_0) (h5 : V' main_v0_1 = V c main_v0_1)
    (h6 : V' main_v1 = (dat1 V c).arrAt 7 cfg1.N) :
    ((dat1 V c).arrays ((dat1 V c).arrAt · cfg1.N) : sProp 𝕄) ⊢ unscopedBufs c V' := by
  rw [ucBufs_chain, arrays1_chain, share1_0, share1_1, share1_2, share1_3, share1_4, share1_5, share1_6, share1_7]
  rw [h0, h1, h2, h3, h4, h5, h6]
  rw [(dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl, (dat1 V c).arrAt_in 6 rfl]
  iintro ⟨Hadj, Hxl, Hxr, HW, Hb, Hdr, Hdc, Ho⟩
  ihave Hx := (pointsTo_share (PosShare.mem_left_op_right fullShare)).2 $$ [Hxl Hxr]
  · isplitl [Hxl]; · iexact Hxl
    iexact Hxr
  isplitl [Hx]; · iexact Hx
  isplitl [Hadj]; · iexact Hadj
  isplitl [HW]; · iexact HW
  isplitl [Hb]; · iexact Hb
  isplitl [Hdc]; · iexact Hdc
  isplitl [Hdr]; · iexact Hdr
  iexact Ho

end Cert.KernelIdeal.Fr

end
-- ==== Proof.KiRun.lean ====
/-
  The whole program — the degree pass, then the main pass — run from the launch to the return, at any value family.

  Between the launch and the first pass every unscoped buffer holds its launch contents; the first pass leaves its
  two outputs (the factors as a row and as a column) at what its grid points wrote back; the second pass leaves the
  result array at what ITS grid points wrote back and every other buffer as it found it.  No pass writes an
  argument.  The run ends with the result named and the four arguments as launched.
-/
import proofs.«157551_j25898652795458_2_alg».proof.Proof.Gen.KernelIdeal.Launch
import proofs.«157551_j25898652795458_2_alg».proof.Proof.Gen.KernelIdeal.Skeleton
import proofs.«157551_j25898652795458_2_alg».proof.Proof.Gen.KernelIdeal.Points
import proofs.«157551_j25898652795458_2_alg».proof.Proof.KiReg0
import proofs.«157551_j25898652795458_2_alg».proof.Proof.KiShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the first pass is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first pass: its arrays at what it leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second pass: the result array at what it leaves, every other buffer as entered. -/
def W2 (c : Dev nD) : Valuation τ sig (Elt F) :=
  Function.update (W1 m ρ c) (Proc.devRef .tc main_v1) ((dat1 (V1 m ρ) c).arrAt 7 cfg1.N)
theorem W2_out (c : Dev nD) : W2 m ρ c (Proc.devRef .tc main_v1) = (dat1 (V1 m ρ) c).arrAt 7 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b

/-! ### The arguments end as launched -/

theorem W2_main_arg0 (c : Dev nD) : W2 m ρ c (Proc.devRef .tc main_arg0) = m ((c : Thread nD τ).loc main_arg0) :=
  (W2_of_ne m ρ c main_arg0 (by decide)).trans ((W1_of_ne m ρ c main_arg0 (by decide)).trans rfl)
theorem W2_main_arg1 (c : Dev nD) : W2 m ρ c (Proc.devRef .tc main_arg1) = m ((c : Thread nD τ).loc main_arg1) :=
  (W2_of_ne m ρ c main_arg1 (by decide)).trans
    ((W1_arr m ρ c 0).trans (((dat0 (V0 m ρ) c).arrAt_in 0 rfl _).trans ((A_eq0 (V0 m ρ) c 0).trans rfl)))
theorem W2_main_arg2 (c : Dev nD) : W2 m ρ c (Proc.devRef .tc main_arg2) = m ((c : Thread nD τ).loc main_arg2) :=
  (W2_of_ne m ρ c main_arg2 (by decide)).trans ((W1_of_ne m ρ c main_arg2 (by decide)).trans rfl)
theorem W2_main_arg3 (c : Dev nD) : W2 m ρ c (Proc.devRef .tc main_arg3) = m ((c : Thread nD τ).loc main_arg3) :=
  (W2_of_ne m ρ c main_arg3 (by decide)).trans ((W1_of_ne m ρ c main_arg3 (by decide)).trans rfl)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The passes as segments -/

set_option backward.isDefEq.respectTransparency.types false in
/-- The degree pass: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main pass: entered from every unscoped buffer at `W1`, left at `W2`. All the core's unscoped buffers are
    its arrays; the features' buffer is dealt to its two windows on entry and joined on exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := split1 (V1 m ρ) c
    rw [Pipeline.unscopedBufs_held] at hsplit
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m ρ 1 c).Φ (Fin.last _) = PhiS (V1 m ρ) c cfg1.N (Nat.le_refl _) from rfl,
      PhiS_pos (V1 m ρ) c _ _ (by rw [show cfg1.N = 64 from N_1]; decide),
      show (Pipeline.scopedRest (Ix := Unit) (Name := ℕ) (U := UR sig nD τ) (Lvl := ℕ) (Val := Elt F) (Pipeline.pin (pcfgs (F := F)) adm 1).spec c : sProp 𝕄)
        = restWith c iprop(∃ f : Buf (Elt F) ((c : Thread nD τ).loc cc1_scratch0), ((c : Thread nD τ).loc cc1_scratch0) ↦{fullShare} f)
        from scopedRest1_with c]
    unfold restWith
    rw [owns_whole]
    iintro ⟨⟨B1, B2, B3, B4, B5, B6, HS⟩, Hp⟩
    isplitl [Hp]; · iexact Hp
    isplitr; · iempintro
    isplitl [B1]; · iexact B1
    isplitl [B2]; · iexact B2
    isplitl [B3]; · iexact B3
    isplitl [B4]; · iexact B4
    isplitl [B5]; · iexact B5
    isplitl [B6]; · iexact B6
    iexists _; iexact HS
  hexit c := by
    have hjoin := join1 (V1 m ρ) c (V2 m ρ c)
      (W2_of_ne m ρ c main_arg0 (by decide)) (W2_of_ne m ρ c main_arg1 (by decide)) (W2_of_ne m ρ c main_arg2 (by decide))
      (W2_of_ne m ρ c main_arg3 (by decide)) (W2_of_ne m ρ c main_v0_0 (by decide)) (W2_of_ne m ρ c main_v0_1 (by decide))
      (W2_out m ρ c)
    rw [Pipeline.unscopedBufs_held] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds the result array at what the main pass's grid points wrote back and every argument as launched. -/
theorem run_all : θ_run defs (onTc (τ := τ) (main (F := F))) ⟨m, fun _ => 0, ρ⟩ (fun r => ∀ c : Dev nD,
      r.2.mem ((c.tc : Thread nD τ).loc main_v1) = (dat1 (V1 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_out m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Fr

end
-- ==== Proof.Spec.lean ====
/-
  The function both programs compute, index by index, on the extended reals.

  For a batch `b`, a node `n` and an output feature `o`:
    deg b n   = Σ_k adj[b,n,k]                                   (the row degree)
    dinv b n  = (deg b n + ε)^(-1/2) when deg b n + ε > 0, and 0 otherwise
    sup b m o = Σ_i x[b,m,i] · W[o,i] + bias[o]                  (the linear layer)
    out b n o = max (Σ_m (adj[b,n,m] · dinv b n · dinv b m) · sup b m o + x[b,n,o]) 0

  The kernel reaches `dinv` as "reciprocal square root, then infinite ↦ 0", the reference as
  "power −1/2, then infinite ↦ 0"; on a REAL argument r both are `dinvR r` below:  r > 0 gives (√r)⁻¹
  on both sides; r = 0 gives +∞ ↦ 0 on one side and the convention 0^(−1/2) = 0 on the other; r < 0
  gives −∞ ↦ 0 on one side and |r|^(−1/2)·cos(−π/2) = 0 on the other.
-/
import Idealize.ShloMosaic.PureOps.Ideal.Laws
import Idealize.ShloMosaic.Lib.ValueIdx

noncomputable section

namespace Cert.Spec

open Idealize.ShloMosaic Idealize.ShloMosaic.ValueIdx

abbrev SX : Shape := ⟨3, ![8, 2048, 256]⟩
abbrev SA : Shape := ⟨3, ![8, 2048, 2048]⟩
abbrev SW : Shape := ⟨2, ![256, 256]⟩
abbrev SB : Shape := ⟨1, ![256]⟩

/-- The small positive number both programs add to a degree: the same f32 word on both sides. -/
def eps : EReal := Ideal.ofBits .f32 0x358637BD#32

/-- The degree of node `n` of batch `b`: its row sum. -/
def deg (adj : SA.Idx → EReal) (b : Fin 8) (n : Fin 2048) : EReal := ∑ k : Fin 2048, adj (ix3 b n k)

/-- The inverse square root with the non-positive arguments sent to 0. -/
def dinvR (r : ℝ) : ℝ := if 0 < r then (Real.sqrt r)⁻¹ else 0

/-- The normalisation factor of node `n` of batch `b`. -/
def dinv (adj : SA.Idx → EReal) (b : Fin 8) (n : Fin 2048) : EReal := ((dinvR (deg adj b n + eps).toReal : ℝ) : EReal)

/-- The linear layer on node `m` of batch `b`, feature `o`. -/
def sup (x : SX.Idx → EReal) (W : SW.Idx → EReal) (bias : SB.Idx → EReal) (b : Fin 8) (m : Fin 2048) (o : Fin 256) : EReal :=
  (∑ i : Fin 256, x (ix3 b m i) * W (ix2 o i)) + bias (ix1 o)

/-- The layer's result at batch `b`, node `n`, feature `o`. -/
def out (x : SX.Idx → EReal) (adj : SA.Idx → EReal) (W : SW.Idx → EReal) (bias : SB.Idx → EReal)
    (b : Fin 8) (n : Fin 2048) (o : Fin 256) : EReal :=
  max ((∑ m : Fin 2048, (adj (ix3 b n m) * dinv adj b n * dinv adj b m) * sup x W bias b m o) + x (ix3 b n o)) 0

/-- The whole result array. -/
def G (x : SX.Idx → EReal) (adj : SA.Idx → EReal) (W : SW.Idx → EReal) (bias : SB.Idx → EReal) : SX.Idx → EReal :=
  fun j => out x adj W bias (j 0) (j 1) (j 2)

end Cert.Spec

end
-- ==== Proof.PayLaws.lean ====
/-
  The one law behind the normalisation factor, on the extended reals.

  The kernel takes the reciprocal square root of a degree plus ε and replaces an infinite result by 0.
  On a real argument r this is  (√r)⁻¹  when r > 0 and 0 otherwise:  at r = 0 the reciprocal square root
  is +∞, at r < 0 it is −∞, and both have absolute value +∞, which the comparison with +∞ detects; for
  r > 0 the result is a real number, whose absolute value is not +∞.
  Also here: a finite sum of reals is a real, and ε is a real.
-/
import proofs.«157551_j25898652795458_2_alg».proof.Proof.Spec

noncomputable section

namespace Cert.KernelIdeal.PayLaws

open Idealize.ShloMosaic

/-- The f32 word `0x7F800000` denotes +∞. -/
theorem ofBits_inf_f32 : Ideal.ofBits .f32 0x7F800000#32 = ⊤ := by
  simp [Ideal.ofBits, Ideal.ieee]

/-- "Reciprocal square root, then infinite ↦ 0" on a real argument is `dinvR`. -/
theorem rsqrt_guard (r : ℝ) :
    Scalar.select
        (Ideal.cmp .oeq (max (Ideal.rsqrt (r : EReal)) (-(Ideal.rsqrt (r : EReal)))) (Ideal.ofBits .f32 0x7F800000#32))
        (Ideal.ofBits .f32 0x00000000#32) (Ideal.rsqrt (r : EReal))
      = ((Cert.Spec.dinvR r : ℝ) : EReal) := by
  rw [ofBits_inf_f32, Ideal.ofBits_zero_f32, Ideal.rsqrt_coe]
  unfold Cert.Spec.dinvR Scalar.select Ideal.cmp
  rcases lt_trichotomy r 0 with h | h | h
  · have h' : ¬ 0 < r := not_lt.mpr h.le
    simp [h, h']
  · simp [h]
  · have h1 : ¬ r < 0 := not_lt.mpr h.le
    have h2 : r ≠ 0 := h.ne'
    have hne : ¬ max (((Real.sqrt r)⁻¹ : ℝ) : EReal) (-(((Real.sqrt r)⁻¹ : ℝ) : EReal)) = ⊤ := by
      rw [max_eq_top]
      rintro (e | e)
      · exact EReal.coe_ne_top _ e
      · rw [← EReal.coe_neg] at e; exact EReal.coe_ne_top _ e
    simp only [if_neg h1, if_neg h2, if_pos h, decide_eq_false hne, BitVec.ofBool_false]
    rw [if_neg (by decide)]

/-- A finite sum of reals, taken on the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- ε is a real number. -/
theorem eps_real : ∃ e : ℝ, Cert.Spec.eps = (e : EReal) := by
  unfold Cert.Spec.eps
  simp [Ideal.ofBits, Ideal.ieee]
  exact ⟨_, rfl⟩

/-- A row sum of reals plus ε is a real. -/
theorem sum_add_eps_real {n : ℕ} (f : Fin n → EReal) (hf : ∀ k, ∃ q : ℝ, f k = (q : EReal)) :
    ∃ q : ℝ, (∑ k : Fin n, f k) + Cert.Spec.eps = (q : EReal) := by
  choose g hg using hf
  obtain ⟨e, he⟩ := eps_real
  refine ⟨(∑ k : Fin n, g k) + e, ?_⟩
  rw [he, EReal.coe_add, ← sum_coe]
  exact congrArg (· + (e : EReal)) (Finset.sum_congr rfl fun k _ => hg k)

end Cert.KernelIdeal.PayLaws

end
-- ==== Proof.Payloads.lean ====
/-
  The kernel's stored values read at an index, on the extended reals.

  The degree kernel stores, for each row r of a 256-row block of the adjacency matrix, the
  normalisation factor of that row: the row sum plus ε is sent through the reciprocal square root and the
  infinite results are replaced by 0. The main kernel stores the linear layer  x·Wᵀ + bias  and then
  max (Σ_m (adj[r,m] · d[r] · d[m]) · sup[m,o] + x[r,o]) 0.  Every store is read here at one index
  given by its coordinates; the layout operations in between (added or dropped unit axes, a transposed
  weight block, a row or a column repeated over a block) only move that index.
-/
import proofs.«157551_j25898652795458_2_alg».proof.Proof.Gen.KernelIdeal.Skeleton
import proofs.«157551_j25898652795458_2_alg».proof.Proof.Spec
import proofs.«157551_j25898652795458_2_alg».proof.Proof.PayLaws
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ## Two layout readings: a vector stood up as a column, and a column repeated along the rows -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The degree kernel's two stores are its vector of factors, re-laid -/

/-- The row store `[1, 1, 256]` holds the factor of row `r` at `(0, 0, r)`. -/
theorem pay_dcol (v0 : Vec Ideal S1x256x2048 .f32) (r : Fin 256) :
    k0_pay2 (F := Ideal) v0 (ix3 0 0 r) = k0_pay1 (F := Ideal) v0 (ix1 r) := by
  unfold k0_pay2
  exact (shapeCast_ab_1ab_apply _ _ 0 0 r).trans (shapeCast_a_1a_apply _ _ 0 r)

/-- The column store `[1, 256, 1]` holds the factor of row `r` at `(0, r, 0)`. -/
theorem pay_drow (v0 : Vec Ideal S1x256x2048 .f32) (r : Fin 256) :
    k0_pay3 (F := Ideal) v0 (ix3 0 r 0) = k0_pay1 (F := Ideal) v0 (ix1 r) := by
  unfold k0_pay3
  exact (shapeCast_ab_1ab_apply _ _ 0 r 0).trans (shapeCast_a_a1_apply _ _ r 0)

/-! ## The two matrix products: the operand indices of a plain rows-by-columns contraction -/

/-- The linear layer's product `[2048, 256] × [256, 256]`. -/
abbrev DL := dot_S2048x256_S256x256_S2048x256_1_0_0_1_n_n
/-- The aggregation's product `[256, 2048] × [2048, 256]`. -/
abbrev DA := dot_S256x2048_S2048x256_S256x256_1_0_0_1_n_n

theorem DL_lhs_0 (i : S2048x256.Idx) (q : DL.contr.Idx) : (DL.lhsIdx i q 0).val = (i 0).val := by
  unfold DotDims.lhsIdx
  rw [dif_neg (show ¬(0 : Fin S2048x256.rank) ∈ DL.lhsBatch by decide), dif_pos (show (0 : Fin S2048x256.rank) ∈ DL.lhsNonContracting by decide)]
  rfl
theorem DL_lhs_1 (i : S2048x256.Idx) (q : DL.contr.Idx) : (DL.lhsIdx i q 1).val = (q ⟨0, by decide⟩).val :=
  DL.lhsIdx_val_of_single rfl i q
theorem DL_rhs_0 (i : S2048x256.Idx) (q : DL.contr.Idx) : (DL.rhsIdx i q 0).val = (q ⟨0, by decide⟩).val :=
  DL.rhsIdx_val_of_single rfl i q
theorem DL_rhs_1 (i : S2048x256.Idx) (q : DL.contr.Idx) : (DL.rhsIdx i q 1).val = (i 1).val := by
  unfold DotDims.rhsIdx
  rw [dif_neg (show ¬(1 : Fin S256x256.rank) ∈ DL.rhsBatch by decide), dif_pos (show (1 : Fin S256x256.rank) ∈ DL.rhsNonContracting by decide)]
  rfl

/-- At result index `(m, o)` and contraction coordinate `k` the left operand is read at `(m, k)` … -/
theorem DL_lhs (m : Fin 2048) (o : Fin 256) (k : Fin 256) :
    DL.lhsIdx (ix2 m o) ((contrEquiv1 DL 256 rfl rfl).symm k) = ix2 m k := by
  have hk := contrEquiv1_symm_val DL 256 rfl rfl k
  exact funext fun a => Fin.ext (by
    match a with
    | ⟨0, _⟩ => exact DL_lhs_0 _ _
    | ⟨1, _⟩ => exact (DL_lhs_1 _ _).trans hk)

/-- … and the right operand at `(k, o)`. -/
theorem DL_rhs (m : Fin 2048) (o : Fin 256) (k : Fin 256) :
    DL.rhsIdx (ix2 m o) ((contrEquiv1 DL 256 rfl rfl).symm k) = ix2 k o := by
  have hk := contrEquiv1_symm_val DL 256 rfl rfl k
  exact funext fun a => Fin.ext (by
    match a with
    | ⟨0, _⟩ => exact (DL_rhs_0 _ _).trans hk
    | ⟨1, _⟩ => exact DL_rhs_1 _ _)

/-! ## The linear layer -/

/-- The support store `[2048, 256]` holds at `(m, o)` the row `m` of the features against the row `o` of the weight
    block (stored output-major and transposed before the product), plus the bias at `o`. -/
theorem pay_sup (v25 : Vec Ideal S1x2048x256 .f32) (v28 : Vec Ideal S256x256 .f32) (v32 : Vec Ideal S256 .f32)
    (m : Fin 2048) (o : Fin 256) :
    k1_pay1 (F := Ideal) v25 v28 v32 (ix2 m o)
      = (∑ i : Fin 256, v25 (ix3 0 m i) * v28 (ix2 o i)) + v32 (ix1 o) := by
  unfold k1_pay1
  rw [shapeCast_self]
  refine congrArg₂ (· + ·) ?_ ?_
  · refine (Ideal.matmul_constant_zero_apply DL none _ _ (ix2 m o)).trans ?_
    rw [← Equiv.sum_comp (contrEquiv1 DL 256 rfl rfl).symm]
    refine Finset.sum_congr rfl fun k _ => ?_
    rw [DL_lhs, DL_rhs]
    refine congrArg₂ (· * ·) ?_ ?_
    · exact shapeCast_1ab_ab_apply _ _ m k
    · exact transpose_ix2_apply _ _ k o
  · exact (broadcastTo_1b_ab_apply _ _ m o).trans (shapeCast_a_1a_apply _ _ 0 o)

theorem DA_lhs_0 (i : S256x256.Idx) (q : DA.contr.Idx) : (DA.lhsIdx i q 0).val = (i 0).val := by
  unfold DotDims.lhsIdx
  rw [dif_neg (show ¬(0 : Fin S256x2048.rank) ∈ DA.lhsBatch by decide), dif_pos (show (0 : Fin S256x2048.rank) ∈ DA.lhsNonContracting by decide)]
  rfl
theorem DA_lhs_1 (i : S256x256.Idx) (q : DA.contr.Idx) : (DA.lhsIdx i q 1).val = (q ⟨0, by decide⟩).val :=
  DA.lhsIdx_val_of_single rfl i q
theorem DA_rhs_0 (i : S256x256.Idx) (q : DA.contr.Idx) : (DA.rhsIdx i q 0).val = (q ⟨0, by decide⟩).val :=
  DA.rhsIdx_val_of_single rfl i q
theorem DA_rhs_1 (i : S256x256.Idx) (q : DA.contr.Idx) : (DA.rhsIdx i q 1).val = (i 1).val := by
  unfold DotDims.rhsIdx
  rw [dif_neg (show ¬(1 : Fin S2048x256.rank) ∈ DA.rhsBatch by decide), dif_pos (show (1 : Fin S2048x256.rank) ∈ DA.rhsNonContracting by decide)]
  rfl

/-- At result index `(r, o)` and contraction coordinate `m` the left operand is read at `(r, m)` … -/
theorem DA_lhs (r o : Fin 256) (m : Fin 2048) :
    DA.lhsIdx (ix2 r o) ((contrEquiv1 DA 2048 rfl rfl).symm m) = ix2 r m := by
  have hk := contrEquiv1_symm_val DA 2048 rfl rfl m
  exact funext fun a => Fin.ext (by
    match a with
    | ⟨0, _⟩ => exact DA_lhs_0 _ _
    | ⟨1, _⟩ => exact (DA_lhs_1 _ _).trans hk)

/-- … and the right operand at `(m, o)`. -/
theorem DA_rhs (r o : Fin 256) (m : Fin 2048) :
    DA.rhsIdx (ix2 r o) ((contrEquiv1 DA 2048 rfl rfl).symm m) = ix2 m o := by
  have hk := contrEquiv1_symm_val DA 2048 rfl rfl m
  exact funext fun a => Fin.ext (by
    match a with
    | ⟨0, _⟩ => exact (DA_rhs_0 _ _).trans hk
    | ⟨1, _⟩ => exact DA_rhs_1 _ _)

/-! ## The aggregation -/

/-- The result store `[1, 256, 256]` holds at `(0, r, o)` the normalised adjacency row `r` against column `o` of the
    support, plus the residual, clamped below at 0. -/
theorem pay_out (v3 : Vec Ideal S1x256x2048 .f32) (v5 : Vec Ideal S1x256x1 .f32) (v7 : Vec Ideal S1x1x2048 .f32)
    (v14 : Vec Ideal S2048x256 .f32) (v17 : Vec Ideal S1x256x256 .f32) (r o : Fin 256) :
    k1_pay2 (F := Ideal) v3 v5 v7 v14 v17 (ix3 0 r o)
      = max ((∑ m : Fin 2048, (v3 (ix3 0 r m) * v5 (ix3 0 r 0) * v7 (ix3 0 0 m)) * v14 (ix2 m o)) + v17 (ix3 0 r o)) 0 := by
  unfold k1_pay2
  refine (shapeCast_ab_1ab_apply _ _ 0 r o).trans ?_
  refine congrArg₂ max ?_ Ideal.ofBits_zero_f32
  refine congrArg₂ (· + ·) ?_ (shapeCast_1ab_ab_apply _ _ r o)
  refine (Ideal.matmul_constant_zero_apply DA none _ _ (ix2 r o)).trans ?_
  rw [← Equiv.sum_comp (contrEquiv1 DA 2048 rfl rfl).symm]
  refine Finset.sum_congr rfl fun m _ => ?_
  rw [DA_lhs, DA_rhs]
  refine congrArg₂ (fun a b : EReal => a * b) ?_ rfl
  refine congrArg₂ (fun a b : EReal => a * b) ?_ ?_
  · refine congrArg₂ (fun a b : EReal => a * b) ?_ ?_
    · exact shapeCast_1ab_ab_apply _ _ r m
    · exact (broadcastTo_a1_ab_apply _ _ r m).trans (shapeCast_1ab_ab_apply _ _ r 0)
  · exact (broadcastTo_1b_ab_apply _ _ r m).trans (shapeCast_1ab_ab_apply _ _ 0 m)

/-! ## The normalisation factor -/

/-- "Reciprocal square root, then infinite ↦ 0", as one function of an extended real. -/
def guard (x : EReal) : EReal :=
  Scalar.select
    (Ideal.cmp .oeq (max (Ideal.rsqrt x) (-(Ideal.rsqrt x))) (Ideal.ofBits .f32 0x7F800000#32))
    (Ideal.ofBits .f32 0x00000000#32) (Ideal.rsqrt x)

/-- The kernel's spelling of it over a vector — compare the absolute value of the reciprocal square root with +∞, select
    0 there — is `guard` at each element. -/
theorem guard_apply {s : Shape} (v : FVec Ideal s .f32) (i : s.Idx) :
    select (cmpf .oeq (absf (rsqrt v)) (broadcast s (Scalar.ofBits (F := Ideal) .f32 0x7F800000#32)))
        (broadcast s (Scalar.ofBits (F := Ideal) .f32 0x00000000#32)) (rsqrt v) i
      = guard (v i) := rfl

/-- On a real argument it is `dinvR`. -/
theorem guard_coe (q : ℝ) : guard (q : EReal) = ((Cert.Spec.dinvR q : ℝ) : EReal) := PayLaws.rsqrt_guard q

/-- The lane sum of the block viewed `[256, 2048]`, at row `r`, is the sum of the block's row `r`. -/
theorem rowsum_apply (v0 : Vec Ideal S1x256x2048 .f32) (hc : S1x256x2048.ShapeCasts S256x2048)
    (h : S256x2048.Reduces [1] S256) (hφ : FKind.Formats .f32)
    (hacc : (0x00000000#32 : BitVec 32) = FKind.add.neutral .f32 hφ) (r : Fin 256) :
    multiReduction (F := Ideal) .add [1] S256 (shapeCast S256x2048 v0 hc) 0x00000000#32 h hφ hacc (ix1 r)
      = ∑ k : Fin 2048, v0 (ix3 0 r k) := by
  refine (Ideal.multiReduction_add_single (shapeCast S256x2048 v0 hc) 0x00000000#32 h hφ hacc (ix1 r)).trans ?_
  refine Finset.sum_congr rfl fun k _ => ?_
  have hl : h.lift (ix1 r) k = ix2 r k := funext fun a => Fin.ext (by
    match a with
    | ⟨0, _⟩ => rfl
    | ⟨1, _⟩ => rfl)
  rw [hl]
  exact shapeCast_1ab_ab_apply _ _ r k

/-- The factor vector `[256]` holds at `r` the `dinvR` of the block's row sum plus ε, when the block's entries are
    real numbers. -/
theorem pay_dinv (v0 : Vec Ideal S1x256x2048 .f32) (hv : ∀ i, ∃ q : ℝ, v0 i = (q : EReal)) (r : Fin 256) :
    k0_pay1 (F := Ideal) v0 (ix1 r)
      = ((Cert.Spec.dinvR ((∑ k : Fin 2048, v0 (ix3 0 r k)) + Cert.Spec.eps).toReal : ℝ) : EReal) := by
  obtain ⟨q, hq⟩ := PayLaws.sum_add_eps_real (fun k : Fin 2048 => v0 (ix3 0 r k)) (fun k => hv _)
  unfold k0_pay1
  refine (guard_apply _ (ix1 r)).trans ?_
  refine (congrArg guard (congrArg₂ (· + ·) (rowsum_apply v0 _ _ _ _ r) rfl)).trans ?_
  show guard ((∑ k : Fin 2048, v0 (ix3 0 r k)) + Cert.Spec.eps) = _
  rw [hq, EReal.toReal_coe]
  exact guard_coe q

end Cert.KernelIdeal.Pay

end
-- ==== Proof.KiVal0.lean ====
/-
  The degree pass, read: after its 64 grid points the two output arrays hold the normalisation factors.

  Grid point t = 8·b + i stages the rows [256·i, 256·i + 256) of batch b of the adjacency matrix and writes back the
  256 factors of those rows twice: into columns [256·i, 256·i + 256) of row 0 of batch b of the row-shaped output
  [8, 1, 2048], and into rows [256·i, 256·i + 256) of batch b of the column-shaped output [8, 2048, 1].  The factor of
  a row is a function of that row's sum alone, and the staged block holds exactly the adjacency rows it names, so
  what a point writes is the block of ONE function of the whole adjacency array:  (b, n) ↦ dinv adj b n.  The blocks
  of the 64 points tile each output, so each output ends holding that function everywhere.
-/
import proofs.«157551_j25898652795458_2_alg».proof.Proof.KiReg0
import proofs.«157551_j25898652795458_2_alg».proof.Proof.Payloads
import Idealize.ShloMosaic.Lib.Pipeline.Value

noncomputable section

namespace Cert.KernelIdeal.Val

open Cert.KernelIdeal Cert.KernelIdeal.Gen Cert.KernelIdeal.Fr Cert.KernelIdeal.Pay
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-! ## The block indices over the grid -/

/-- Point `t` is batch `t / 8`, row block `t % 8`: the adjacency block and the column-shaped output's block sit at
    `(t / 8, t % 8, 0)`, the row-shaped output's block at `(t / 8, 0, t % 8)`. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = t.val % 8 ∧ win0_2.index t (2 : Fin 3) = 0 :=
  (by decide +kernel : ∀ t : Fin grid0.N, _)

/-! ## One row's factor from the staged block -/

/-- If row `r` of a staged block is row `n` of batch `b` of an array `A` of real numbers, the block's factor at `r` is
    `dinv A b n`. -/
theorem factor_of_row (A : S8x2048x2048.Idx → EReal) (x0 : Vec Ideal S1x256x2048 .f32) (hx0 : ∀ i, ∃ q : ℝ, x0 i = (q : EReal))
    (b : Fin 8) (n : Fin 2048) (r : Fin 256) (hx : ∀ k : Fin 2048, x0 (ix3 0 r k) = A (ix3 b n k)) :
    k0_pay1 (F := Ideal) x0 (ix1 r) = Cert.Spec.dinv A b n := by
  rw [pay_dinv x0 hx0 r]
  unfold Cert.Spec.dinv Cert.Spec.deg
  rw [Finset.sum_congr rfl fun k _ => hx k]

/-- The adjacency block staged at point `t`, at `(0, r, k)`, is the array at batch `t / 8`, row `256·(t % 8) + r`,
    column `k`: stated for any index `i` of the array with those coordinates. -/
theorem adj_block_apply (c : Dev nD) (t : Fin cfg0.N) (r : Fin 256) (k : Fin 2048) (i : S8x2048x2048.Idx)
    (h0 : (i 0).val = t.val / 8) (h1 : (i 1).val = 256 * (t.val % 8) + r.val) (h2 : (i 2).val = k.val) :
    (iblk0 V c 0 t : Vec Ideal S1x256x2048 .f32) (ix3 0 r k) = (V c main_arg1 : S8x2048x2048.Idx → EReal) i := by
  obtain ⟨e00, e01, e02, -⟩ := idx_facts0 t
  unfold iblk0
  rw [View.read_apply]
  show (V c main_arg1 : S8x2048x2048.Idx → EReal) (((cfg0.win 0).blk t).view.emb (ix3 0 r k)) = _
  congr 1
  funext a
  apply Fin.ext
  match a with
  | ⟨0, _⟩ => show win0_0.index t (0 : Fin 3) * 1 + 1 * 0 = (i 0).val; omega
  | ⟨1, _⟩ => show win0_0.index t (1 : Fin 3) * 256 + 1 * r.val = (i 1).val; omega
  | ⟨2, _⟩ => show win0_0.index t (2 : Fin 3) * 2048 + 1 * k.val = (i 2).val; omega

/-! ## The row-shaped output `[8, 1, 2048]` -/

/-- What the row-shaped output ends holding: at `(b, 0, n)` the factor of row `n` of batch `b`. -/
abbrev colT (c : Dev nD) : S8x1x2048.Idx → EReal :=
  fun j => Cert.Spec.dinv (V c main_arg1) (j 0) (j 2)

/-- What point `t` writes back is block `t` of that function. -/
theorem flushed1_eq (c : Dev nD) (hadj : ∀ i, ∃ q : ℝ, (V c main_arg1 : S8x2048x2048.Idx → EReal) i = (q : EReal)) (t : Fin cfg0.N) :
    (dat0 (F := Ideal) V c).flushed 1 t = ((cfg0.win 1).blk t).view.read (Elt Ideal) (colT V c) := by
  show (cfg0.win 1).cut (grid0.coords t) ((dat0 (F := Ideal) V c).after 1 t) = _
  rw [after0_1]
  unfold out0_1
  rw [View.canon_unit_zero hz3]
  simp only [View.ld_unit_zero (S := S1x256x2048) hz3]
  obtain ⟨-, -, -, e10, e11, e12, -⟩ := idx_facts0 t
  funext y
  have hy0 : (y 0).val = 0 := by have : (y 0).val < 1 := (y 0).isLt; omega
  have hy1 : (y 1).val = 0 := by have : (y 1).val < 1 := (y 1).isLt; omega
  have hy2 : (y 2).val < 256 := (y 2).isLt
  show k0_pay2 (F := Ideal) (iblk0 V c 0 t) ((cfg0.win 1).xinj (grid0.coords t) y)
    = colT V c (((cfg0.win 1).blk t).view.emb y)
  have hy : (cfg0.win 1).xinj (grid0.coords t) y = ix3 (0 : Fin 1) (0 : Fin 1) (⟨(y 2).val, hy2⟩ : Fin 256) := by
    funext a
    apply Fin.ext
    match a with
    | ⟨0, _⟩ => exact hy0
    | ⟨1, _⟩ => exact hy1
    | ⟨2, _⟩ => rfl
  refine (congrArg (k0_pay2 (F := Ideal) (iblk0 V c 0 t)) hy).trans ?_
  refine (pay_dcol (iblk0 V c 0 t) ⟨(y 2).val, hy2⟩).trans ?_
  refine factor_of_row (V c main_arg1) (iblk0 V c 0 t) (fun i => hadj _) _ _ ⟨(y 2).val, hy2⟩ fun k => ?_
  refine adj_block_apply V c t ⟨(y 2).val, hy2⟩ k _ ?_ ?_ rfl
  · show win0_1.index t (0 : Fin 3) * 1 + 1 * (y 0).val = t.val / 8; omega
  · show win0_1.index t (2 : Fin 3) * 256 + 1 * (y 2).val = 256 * (t.val % 8) + (y 2).val; omega

/-- An index of the array is in point `t`'s block iff each coordinate is in the block's range on its axis. -/
theorem mem_blk1 (t : Fin cfg0.N) (i : S8x1x2048.Idx) :
    i ∈ ((cfg0.win 1).blk t).view.set ↔ ∀ a : Fin 3, win0_1.index t a * S1x1x256.size a ≤ (i a).val ∧ (i a).val < win0_1.index t a * S1x1x256.size a + S1x1x256.size a := by
  show i ∈ ((View.whole main_v0_0).slice (win0_1.rect t)).set ↔ _
  rw [View.set_slice_whole, Rect.mem_set_unit]
  exact Iff.rfl

/-- The blocks tile the array: `(b, 0, n)` is in the block of point `8·b + n / 256`. -/
theorem cover1 (i : S8x1x2048.Idx) : ∃ t : Fin cfg0.N, (cfg0.win 1).flush t = true ∧ i ∈ ((cfg0.win 1).blk t).view.set := by
  have hi0 : (i 0).val < 8 := (i 0).isLt
  have hi1 : (i 1).val < 1 := (i 1).isLt
  have hi2 : (i 2).val < 2048 := (i 2).isLt
  have hN : cfg0.N = 64 := N_0
  have htlt : 8 * (i 0).val + (i 2).val / 256 < cfg0.N := by rw [hN]; omega
  obtain ⟨-, -, -, e10, e11, e12, -⟩ := idx_facts0 ⟨8 * (i 0).val + (i 2).val / 256, htlt⟩
  have htv : (⟨8 * (i 0).val + (i 2).val / 256, htlt⟩ : Fin cfg0.N).val = 8 * (i 0).val + (i 2).val / 256 := rfl
  rw [htv] at e10 e12
  refine ⟨⟨8 * (i 0).val + (i 2).val / 256, htlt⟩, flush0_1 _, ?_⟩
  rw [mem_blk1]
  intro a
  match a with
  | ⟨0, _⟩ => show win0_1.index _ (0 : Fin 3) * 1 ≤ (i 0).val ∧ (i 0).val < win0_1.index _ (0 : Fin 3) * 1 + 1; omega
  | ⟨1, _⟩ => show win0_1.index _ (1 : Fin 3) * 1 ≤ (i 1).val ∧ (i 1).val < win0_1.index _ (1 : Fin 3) * 1 + 1; omega
  | ⟨2, _⟩ => show win0_1.index _ (2 : Fin 3) * 256 ≤ (i 2).val ∧ (i 2).val < win0_1.index _ (2 : Fin 3) * 256 + 256; omega

/-- After the pass the row-shaped output holds the factor of row `n` of batch `b` at `(b, 0, n)`. -/
theorem val0_col (c : Dev nD) (hadj : ∀ i, ∃ q : ℝ, (V c main_arg1 : S8x2048x2048.Idx → EReal) i = (q : EReal)) :
    (dat0 (F := Ideal) V c).arrAt 1 cfg0.N = (fun j : S8x1x2048.Idx => Cert.Spec.dinv (V c main_arg1) (j 0) (j 2)) :=
  (dat0 (F := Ideal) V c).arrAt_eq_of_cover 1 (colT V c) (fun t _ => flushed1_eq V c hadj t) (cover1)

/-! ## The column-shaped output `[8, 2048, 1]` -/

/-- What the column-shaped output ends holding: at `(b, n, 0)` the factor of row `n` of batch `b`. -/
abbrev rowT (c : Dev nD) : S8x2048x1.Idx → EReal :=
  fun j => Cert.Spec.dinv (V c main_arg1) (j 0) (j 1)

/-- What point `t` writes back is block `t` of that function. -/
theorem flushed2_eq (c : Dev nD) (hadj : ∀ i, ∃ q : ℝ, (V c main_arg1 : S8x2048x2048.Idx → EReal) i = (q : EReal)) (t : Fin cfg0.N) :
    (dat0 (F := Ideal) V c).flushed 2 t = ((cfg0.win 2).blk t).view.read (Elt Ideal) (rowT V c) := by
  show (cfg0.win 2).cut (grid0.coords t) ((dat0 (F := Ideal) V c).after 2 t) = _
  rw [after0_2]
  unfold out0_2
  rw [View.canon_unit_zero hz3]
  simp only [View.ld_unit_zero (S := S1x256x2048) hz3]
  obtain ⟨-, -, -, -, -, -, e20, e21, e22⟩ := idx_facts0 t
  funext y
  have hy0 : (y 0).val = 0 := by have : (y 0).val < 1 := (y 0).isLt; omega
  have hy1 : (y 1).val < 256 := (y 1).isLt
  have hy2 : (y 2).val = 0 := by have : (y 2).val < 1 := (y 2).isLt; omega
  show k0_pay3 (F := Ideal) (iblk0 V c 0 t) ((cfg0.win 2).xinj (grid0.coords t) y)
    = rowT V c (((cfg0.win 2).blk t).view.emb y)
  have hy : (cfg0.win 2).xinj (grid0.coords t) y = ix3 (0 : Fin 1) (⟨(y 1).val, hy1⟩ : Fin 256) (0 : Fin 1) := by
    funext a
    apply Fin.ext
    match a with
    | ⟨0, _⟩ => exact hy0
    | ⟨1, _⟩ => rfl
    | ⟨2, _⟩ => exact hy2
  refine (congrArg (k0_pay3 (F := Ideal) (iblk0 V c 0 t)) hy).trans ?_
  refine (pay_drow (iblk0 V c 0 t) ⟨(y 1).val, hy1⟩).trans ?_
  refine factor_of_row (V c main_arg1) (iblk0 V c 0 t) (fun i => hadj _) _ _ ⟨(y 1).val, hy1⟩ fun k => ?_
  refine adj_block_apply V c t ⟨(y 1).val, hy1⟩ k _ ?_ ?_ rfl
  · show win0_2.index t (0 : Fin 3) * 1 + 1 * (y 0).val = t.val / 8; omega
  · show win0_2.index t (1 : Fin 3) * 256 + 1 * (y 1).val = 256 * (t.val % 8) + (y 1).val; omega

/-- An index of the array is in point `t`'s block iff each coordinate is in the block's range on its axis. -/
theorem mem_blk2 (t : Fin cfg0.N) (i : S8x2048x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v0_1).slice (win0_2.rect t)).set ↔ _
  rw [View.set_slice_whole, Rect.mem_set_unit]
  exact Iff.rfl

/-- The blocks tile the array: `(b, n, 0)` is in the block of point `8·b + n / 256`. -/
theorem cover2 (i : S8x2048x1.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 1 := (i 2).isLt
  have hN : cfg0.N = 64 := N_0
  have htlt : 8 * (i 0).val + (i 1).val / 256 < cfg0.N := by rw [hN]; omega
  obtain ⟨-, -, -, -, -, -, e20, e21, e22⟩ := idx_facts0 ⟨8 * (i 0).val + (i 1).val / 256, htlt⟩
  have htv : (⟨8 * (i 0).val + (i 1).val / 256, htlt⟩ : Fin cfg0.N).val = 8 * (i 0).val + (i 1).val / 256 := rfl
  rw [htv] at e20 e21
  refine ⟨⟨8 * (i 0).val + (i 1).val / 256, htlt⟩, flush0_2 _, ?_⟩
  rw [mem_blk2]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 256 ≤ (i 1).val ∧ (i 1).val < win0_2.index _ (1 : Fin 3) * 256 + 256; omega
  | ⟨2, _⟩ => show win0_2.index _ (2 : Fin 3) * 1 ≤ (i 2).val ∧ (i 2).val < win0_2.index _ (2 : Fin 3) * 1 + 1; omega

/-- After the pass the column-shaped output holds the factor of row `n` of batch `b` at `(b, n, 0)`. -/
theorem val0_row (c : Dev nD) (hadj : ∀ i, ∃ q : ℝ, (V c main_arg1 : S8x2048x2048.Idx → EReal) i = (q : EReal)) :
    (dat0 (F := Ideal) V c).arrAt 2 cfg0.N = (fun j : S8x2048x1.Idx => Cert.Spec.dinv (V c main_arg1) (j 0) (j 1)) :=
  (dat0 (F := Ideal) V c).arrAt_eq_of_cover 2 (rowT V c) (fun t _ => flushed2_eq V c hadj t) (cover2)

end Cert.KernelIdeal.Val

end
-- ==== Proof.KiVal1.lean ====
/-
  The main pass's output array, from its blocks.

  Grid point t = 8·b + i writes back the block of rows [256·i, 256·i + 256) of batch b.  Its entry (r, o) is
    max (Σ_m (adjblock[r,m] · rowfactor[r] · colfactor[m]) · scratch[m,o] + xblock[r,o]) 0,
  where the scratch buffer holds the linear layer of batch b (computed from the blocks staged at the batch's
  first point 8·b), the row-factor block is rows 256·i … of the column array of factors and the column-factor
  block is the whole row array of factors of batch b.  With both factor arrays equal to `dinv` this is
  `out b (256·i + r) o`, the entry of `G` at the place the block's rectangle names.  The 64 blocks tile the
  array: row n of batch b is in the block of point 8·b + n / 256.
-/
import proofs.«157551_j25898652795458_2_alg».proof.Proof.KiReg1
import proofs.«157551_j25898652795458_2_alg».proof.Proof.Payloads
import Idealize.ShloMosaic.Lib.Pipeline.Value

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)

theorem hzThree : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What the body leaves, at an index -/

/-- The scratch buffer's entry (m, o): the linear layer of row m. -/
theorem scr_at (x1 : Vec Ideal S1x2048x256 .f32) (x3 : Vec Ideal S256x256 .f32) (x4 : Vec Ideal S256 .f32)
    (m : Fin 2048) (o : Fin 256) :
    scr1 x1 x3 x4 (ix2 m o) = (∑ i : Fin 256, x1 (ix3 0 m i) * x3 (ix2 o i)) + x4 (ix1 o) := by
  unfold scr1
  rw [View.canon_unit_zero hz2]
  simp only [View.ld_unit_zero (S := S1x2048x256) hzThree, View.ld_unit_zero (S := S256x256) hz2, View.ld_unit_zero (S := S256) hz1]
  exact pay_sup x1 x3 x4 m o

/-- The output block's entry (r, o). -/
theorem out_at (x0 : Vec Ideal S1x256x2048 .f32) (x5 : Vec Ideal S1x256x1 .f32) (x6 : Vec Ideal S1x1x2048 .f32)
    (s : Vec Ideal S2048x256 .f32) (x2 : Vec Ideal S1x256x256 .f32) (r o : Fin 256) :
    out1_7 x0 x5 x6 s x2 (ix3 0 r o)
      = max ((∑ m : Fin 2048, (x0 (ix3 0 r m) * x5 (ix3 0 r 0) * x6 (ix3 0 0 m)) * s (ix2 m o)) + x2 (ix3 0 r o)) 0 := by
  unfold out1_7
  rw [View.canon_unit_zero hzThree]
  simp only [View.ld_unit_zero (S := S1x256x2048) hzThree, View.ld_unit_zero (S := S1x256x1) hzThree, View.ld_unit_zero (S := S1x1x2048) hzThree,
    View.ld_unit_zero (S := S2048x256) hz2, View.ld_unit_zero (S := S1x256x256) hzThree]
  exact pay_out x0 x5 x6 s x2 r o

/-! ## The windows' blocks, read off their arrays -/

/-- The printed index maps, decided over the grid: point t = 8·b + i stages block (b, i, 0) of the adjacency
    array, of the features (256 rows), of the row factors and of the output, block (b, 0, 0) of the features
    (whole batch) and of the column factors, and the one block of the weights and of the bias. -/
theorem idx_facts1 : ∀ t : Fin cfg1.N,
    (win1_0.index t (0 : Fin 3) = t.val / 8 ∧ win1_0.index t (1 : Fin 3) = t.val % 8 ∧ win1_0.index t (2 : Fin 3) = 0)
    ∧ (win1_1.index t (0 : Fin 3) = t.val / 8 ∧ win1_1.index t (1 : Fin 3) = 0 ∧ win1_1.index t (2 : Fin 3) = 0)
    ∧ (win1_2.index t (0 : Fin 3) = t.val / 8 ∧ win1_2.index t (1 : Fin 3) = t.val % 8 ∧ win1_2.index t (2 : Fin 3) = 0)
    ∧ (win1_3.index t (0 : Fin 2) = 0 ∧ win1_3.index t (1 : Fin 2) = 0)
    ∧ (win1_4.index t (0 : Fin 1) = 0)
    ∧ (win1_5.index t (0 : Fin 3) = t.val / 8 ∧ win1_5.index t (1 : Fin 3) = t.val % 8 ∧ win1_5.index t (2 : Fin 3) = 0)
    ∧ (win1_6.index t (0 : Fin 3) = t.val / 8 ∧ win1_6.index t (1 : Fin 3) = 0 ∧ win1_6.index t (2 : Fin 3) = 0)
    ∧ (win1_7.index t (0 : Fin 3) = t.val / 8 ∧ win1_7.index t (1 : Fin 3) = t.val % 8 ∧ win1_7.index t (2 : Fin 3) = 0) :=
  (by decide +kernel : ∀ t : Fin grid1.N, _)

variable (V : (c : Dev nD) → (b : Ref sig .tc) → Buf (Elt Ideal) ((c : Thread nD τ).loc b))

/-- The adjacency block: row r of the block is row 256·i + r of batch b. -/
theorem rd0 (c : Dev nD) (t : Fin cfg1.N) (r : Fin 256) (m : Fin 2048) (b : Fin 8) (n : Fin 2048)
    (hb : b.val = t.val / 8) (hn : n.val = 256 * (t.val % 8) + r.val) :
    iblk1 V c 0 t (ix3 0 r m) = (V c main_arg1 : S8x2048x2048.Idx → EReal) (ix3 b n m) := by
  obtain ⟨⟨e0, e1, e2⟩, -⟩ := idx_facts1 t
  show (V c main_arg1 : S8x2048x2048.Idx → EReal) (((cfg1.win 0).blk t).view.emb (ix3 0 r m)) = _
  refine congrArg (V c main_arg1 : S8x2048x2048.Idx → EReal) (funext fun a => Fin.ext ?_)
  match a with
  | ⟨0, _⟩ => show win1_0.index t (0 : Fin 3) * 1 + 1 * 0 = b.val; omega
  | ⟨1, _⟩ => show win1_0.index t (1 : Fin 3) * 256 + 1 * r.val = n.val; omega
  | ⟨2, _⟩ => show win1_0.index t (2 : Fin 3) * 2048 + 1 * m.val = m.val; omega

/-- The whole-batch feature block. -/
theorem rd1 (c : Dev nD) (u : Fin cfg1.N) (m : Fin 2048) (i : Fin 256) (b : Fin 8) (hb : b.val = u.val / 8) :
    iblk1 V c 1 u (ix3 0 m i) = (V c main_arg0 : S8x2048x256.Idx → EReal) (ix3 b m i) := by
  obtain ⟨-, ⟨e0, e1, e2⟩, -⟩ := idx_facts1 u
  show (V c main_arg0 : S8x2048x256.Idx → EReal) (((cfg1.win 1).blk u).view.emb (ix3 0 m i)) = _
  refine congrArg (V c main_arg0 : S8x2048x256.Idx → EReal) (funext fun a => Fin.ext ?_)
  match a with
  | ⟨0, _⟩ => show win1_1.index u (0 : Fin 3) * 1 + 1 * 0 = b.val; omega
  | ⟨1, _⟩ => show win1_1.index u (1 : Fin 3) * 2048 + 1 * m.val = m.val; omega
  | ⟨2, _⟩ => show win1_1.index u (2 : Fin 3) * 256 + 1 * i.val = i.val; omega

/-- The residual block of the features. -/
theorem rd2 (c : Dev nD) (t : Fin cfg1.N) (r o : Fin 256) (b : Fin 8) (n : Fin 2048)
    (hb : b.val = t.val / 8) (hn : n.val = 256 * (t.val % 8) + r.val) :
    iblk1 V c 2 t (ix3 0 r o) = (V c main_arg0 : S8x2048x256.Idx → EReal) (ix3 b n o) := by
  obtain ⟨-, -, ⟨e0, e1, e2⟩, -⟩ := idx_facts1 t
  show (V c main_arg0 : S8x2048x256.Idx → EReal) (((cfg1.win 2).blk t).view.emb (ix3 0 r o)) = _
  refine congrArg (V c main_arg0 : S8x2048x256.Idx → EReal) (funext fun a => Fin.ext ?_)
  match a with
  | ⟨0, _⟩ => show win1_2.index t (0 : Fin 3) * 1 + 1 * 0 = b.val; omega
  | ⟨1, _⟩ => show win1_2.index t (1 : Fin 3) * 256 + 1 * r.val = n.val; omega
  | ⟨2, _⟩ => show win1_2.index t (2 : Fin 3) * 256 + 1 * o.val = o.val; omega

/-- The weights' one block. -/
theorem rd3 (c : Dev nD) (u : Fin cfg1.N) (o i : Fin 256) :
    iblk1 V c 3 u (ix2 o i) = (V c main_arg2 : S256x256.Idx → EReal) (ix2 o i) := by
  obtain ⟨-, -, -, ⟨e0, e1⟩, -⟩ := idx_facts1 u
  show (V c main_arg2 : S256x256.Idx → EReal) (((cfg1.win 3).blk u).view.emb (ix2 o i)) = _
  refine congrArg (V c main_arg2 : S256x256.Idx → EReal) (funext fun a => Fin.ext ?_)
  match a with
  | ⟨0, _⟩ => show win1_3.index u (0 : Fin 2) * 256 + 1 * o.val = o.val; omega
  | ⟨1, _⟩ => show win1_3.index u (1 : Fin 2) * 256 + 1 * i.val = i.val; omega

/-- The bias's one block. -/
theorem rd4 (c : Dev nD) (u : Fin cfg1.N) (o : Fin 256) :
    iblk1 V c 4 u (ix1 o) = (V c main_arg3 : S256.Idx → EReal) (ix1 o) := by
  obtain ⟨-, -, -, -, e0, -⟩ := idx_facts1 u
  show (V c main_arg3 : S256.Idx → EReal) (((cfg1.win 4).blk u).view.emb (ix1 o)) = _
  refine congrArg (V c main_arg3 : S256.Idx → EReal) (funext fun a => Fin.ext ?_)
  match a with
  | ⟨0, _⟩ => show win1_4.index u (0 : Fin 1) * 256 + 1 * o.val = o.val; omega

/-- The row-factor block. -/
theorem rd5 (c : Dev nD) (t : Fin cfg1.N) (r : Fin 256) (b : Fin 8) (n : Fin 2048)
    (hb : b.val = t.val / 8) (hn : n.val = 256 * (t.val % 8) + r.val) :
    iblk1 V c 5 t (ix3 0 r 0) = (V c main_v0_1 : S8x2048x1.Idx → EReal) (ix3 b n 0) := by
  obtain ⟨-, -, -, -, -, ⟨e0, e1, e2⟩, -⟩ := idx_facts1 t
  show (V c main_v0_1 : S8x2048x1.Idx → EReal) (((cfg1.win 5).blk t).view.emb (ix3 0 r 0)) = _
  refine congrArg (V c main_v0_1 : S8x2048x1.Idx → EReal) (funext fun a => Fin.ext ?_)
  match a with
  | ⟨0, _⟩ => show win1_5.index t (0 : Fin 3) * 1 + 1 * 0 = b.val; omega
  | ⟨1, _⟩ => show win1_5.index t (1 : Fin 3) * 256 + 1 * r.val = n.val; omega
  | ⟨2, _⟩ => show win1_5.index t (2 : Fin 3) * 1 + 1 * 0 = 0; omega

/-- The column-factor block. -/
theorem rd6 (c : Dev nD) (t : Fin cfg1.N) (m : Fin 2048) (b : Fin 8) (hb : b.val = t.val / 8) :
    iblk1 V c 6 t (ix3 0 0 m) = (V c main_v0_0 : S8x1x2048.Idx → EReal) (ix3 b 0 m) := by
  obtain ⟨-, -, -, -, -, -, ⟨e0, e1, e2⟩, -⟩ := idx_facts1 t
  show (V c main_v0_0 : S8x1x2048.Idx → EReal) (((cfg1.win 6).blk t).view.emb (ix3 0 0 m)) = _
  refine congrArg (V c main_v0_0 : S8x1x2048.Idx → EReal) (funext fun a => Fin.ext ?_)
  match a with
  | ⟨0, _⟩ => show win1_6.index t (0 : Fin 3) * 1 + 1 * 0 = b.val; omega
  | ⟨1, _⟩ => show win1_6.index t (1 : Fin 3) * 1 + 1 * 0 = 0; omega
  | ⟨2, _⟩ => show win1_6.index t (2 : Fin 3) * 2048 + 1 * m.val = m.val; omega

/-- Where the output block's entry (r, o) sits in the array. -/
theorem emb7 (t : Fin cfg1.N) (r o : Fin 256) (b : Fin 8) (n : Fin 2048)
    (hb : b.val = t.val / 8) (hn : n.val = 256 * (t.val % 8) + r.val) :
    (((cfg1.win 7).blk t).view.emb (ix3 0 r o) : S8x2048x256.Idx) = ix3 b n o := by
  obtain ⟨-, -, -, -, -, -, -, ⟨e0, e1, e2⟩⟩ := idx_facts1 t
  refine funext fun a => Fin.ext ?_
  match a with
  | ⟨0, _⟩ => show win1_7.index t (0 : Fin 3) * 1 + 1 * 0 = b.val; omega
  | ⟨1, _⟩ => show win1_7.index t (1 : Fin 3) * 256 + 1 * r.val = n.val; omega
  | ⟨2, _⟩ => show win1_7.index t (2 : Fin 3) * 256 + 1 * o.val = o.val; omega

/-- The scratch buffer after point t holds the linear layer of t's batch. -/
theorem scr_eq (c : Dev nD) (t : Fin cfg1.N) (m : Fin 2048) (o : Fin 256) (b : Fin 8) (hb : b.val = t.val / 8) :
    Scr V c t (ix2 m o) = Cert.Spec.sup (V c main_arg0) (V c main_arg2) (V c main_arg3) b m o := by
  have hN : t.val < 64 := lt_of_lt_of_eq t.isLt (show cfg1.N = 64 from N_1)
  have hb0 : b.val = (t0 t).val / 8 := by show b.val = t.val / 8 * 8 / 8; omega
  unfold Scr S1
  rw [scr_at (iblk1 V c 1 (t0 t)) (iblk1 V c 3 (t0 t)) (iblk1 V c 4 (t0 t)) m o]
  unfold Cert.Spec.sup
  rw [rd4 V c (t0 t) o]
  refine congrArg (· + _) (Finset.sum_congr rfl fun i _ => ?_)
  rw [rd1 V c (t0 t) m i b hb0, rd3 V c (t0 t) o i]

/-! ## What a point writes back, and the array -/

/-- What point t writes back is block t of `G`: entry (r, o) of the block is `out b (256·i + r) o`, each
    staged block being read off its array at the place its index map names. -/
theorem flushed7_eq (c : Dev nD)
    (hcol : V c main_v0_0 = fun j => Cert.Spec.dinv (V c main_arg1) (j 0) (j 2))
    (hrow : V c main_v0_1 = fun j => Cert.Spec.dinv (V c main_arg1) (j 0) (j 1)) (t : Fin cfg1.N) :
    (dat1 (F := Ideal) V c).flushed 7 t = ((cfg1.win 7).blk t).view.read (Elt Ideal)
      (Cert.Spec.G (V c main_arg0) (V c main_arg1) (V c main_arg2) (V c main_arg3)) := by
  show (cfg1.win 7).cut (grid1.coords t) ((dat1 V c).after 7 t) = _
  rw [after1_7]
  funext j
  obtain ⟨u, r, o, rfl⟩ : ∃ (u : Fin 1) (r o : Fin 256), j = ix3 u r o :=
    ⟨j 0, j 1, j 2, eq_ix3 (n0 := 1) (n1 := 256) (n2 := 256) j⟩
  obtain rfl : u = 0 := Subsingleton.elim _ _
  have hN : t.val < 64 := lt_of_lt_of_eq t.isLt (show cfg1.N = 64 from N_1)
  have hr : r.val < 256 := r.isLt
  obtain ⟨b, hb⟩ : ∃ b : Fin 8, b.val = t.val / 8 := ⟨⟨t.val / 8, by omega⟩, rfl⟩
  obtain ⟨n, hn⟩ : ∃ n : Fin 2048, n.val = 256 * (t.val % 8) + r.val := ⟨⟨256 * (t.val % 8) + r.val, by omega⟩, rfl⟩
  show out1_7 (iblk1 V c 0 t) (iblk1 V c 5 t) (iblk1 V c 6 t) (Scr V c t) (iblk1 V c 2 t) (ix3 0 r o)
    = Cert.Spec.G (V c main_arg0) (V c main_arg1) (V c main_arg2) (V c main_arg3) (((cfg1.win 7).blk t).view.emb (ix3 0 r o))
  rw [emb7 t r o b n hb hn, out_at (iblk1 V c 0 t) (iblk1 V c 5 t) (iblk1 V c 6 t) (Scr V c t) (iblk1 V c 2 t) r o]
  rw [show Cert.Spec.G (V c main_arg0) (V c main_arg1) (V c main_arg2) (V c main_arg3) (ix3 b n o)
      = Cert.Spec.out (V c main_arg0) (V c main_arg1) (V c main_arg2) (V c main_arg3) b n o from rfl]
  unfold Cert.Spec.out
  rw [rd2 V c t r o b n hb hn, rd5 V c t r b n hb hn, hrow]
  refine congrArg (fun s : EReal => max (s + (V c main_arg0 : S8x2048x256.Idx → EReal) (ix3 b n o)) 0)
    (Finset.sum_congr rfl fun m _ => ?_)
  rw [rd0 V c t r m b n hb hn, rd6 V c t m b hb, hcol, scr_eq V c t m o b hb]
  rfl

/-- An index of the array is in point `t`'s block iff each coordinate is in the block's range on its axis. -/
theorem mem_blk7 (t : Fin cfg1.N) (i : S8x2048x256.Idx) :
    i ∈ ((cfg1.win 7).blk t).view.set ↔ ∀ a : Fin 3, win1_7.index t a * S1x256x256.size a ≤ (i a).val
      ∧ (i a).val < win1_7.index t a * S1x256x256.size a + S1x256x256.size a := by
  show i ∈ ((View.whole main_v1).slice (win1_7.rect t)).set ↔ _
  rw [View.set_slice_whole, Rect.mem_set_unit]
  exact Iff.rfl

/-- The blocks tile the array: row n of batch b is in the block of point 8·b + n / 256. -/
theorem cover7 (i : S8x2048x256.Idx) :
    ∃ t : Fin cfg1.N, (cfg1.win 7).flush t = true ∧ i ∈ ((cfg1.win 7).blk t).view.set := by
  have h0 : (i 0).val < 8 := (i 0).isLt
  have h1 : (i 1).val < 2048 := (i 1).isLt
  have h2 : (i 2).val < 256 := (i 2).isLt
  have hN : cfg1.N = 64 := N_1
  obtain ⟨t, ht⟩ : ∃ t : Fin cfg1.N, t.val = 8 * (i 0).val + (i 1).val / 256 :=
    ⟨⟨8 * (i 0).val + (i 1).val / 256, by omega⟩, rfl⟩
  refine ⟨t, flush1_7 t, ?_⟩
  rw [mem_blk7]
  obtain ⟨-, -, -, -, -, -, -, ⟨e0, e1, e2⟩⟩ := idx_facts1 t
  intro a
  match a with
  | ⟨0, _⟩ =>
    show win1_7.index t (0 : Fin 3) * 1 ≤ (i 0).val ∧ (i 0).val < win1_7.index t (0 : Fin 3) * 1 + 1
    omega
  | ⟨1, _⟩ =>
    show win1_7.index t (1 : Fin 3) * 256 ≤ (i 1).val ∧ (i 1).val < win1_7.index t (1 : Fin 3) * 256 + 256
    omega
  | ⟨2, _⟩ =>
    show win1_7.index t (2 : Fin 3) * 256 ≤ (i 2).val ∧ (i 2).val < win1_7.index t (2 : Fin 3) * 256 + 256
    omega

/-- The output array after the main pass is `G` of the four argument arrays, when the two arrays of factors the
    pass reads are `dinv`. -/
theorem val1 (c : Dev nD)
    (hcol : V c main_v0_0 = fun j => Cert.Spec.dinv (V c main_arg1) (j 0) (j 2))
    (hrow : V c main_v0_1 = fun j => Cert.Spec.dinv (V c main_arg1) (j 0) (j 1)) :
    (dat1 (F := Ideal) V c).arrAt 7 cfg1.N
      = Cert.Spec.G (V c main_arg0) (V c main_arg1) (V c main_arg2) (V c main_arg3) :=
  (dat1 (F := Ideal) V c).arrAt_eq_of_cover 7
    (Cert.Spec.G (V c main_arg0) (V c main_arg1) (V c main_arg2) (V c main_arg3))
    (fun t _ => flushed7_eq V c hcol hrow t) cover7

end Cert.KernelIdeal.Val

end
-- ==== Proof.KiValue.lean ====
/-
  The idealized kernel's result array, as one function of the argument arrays.

  The degree pass leaves the factors of every node of every batch — as a row and as a column — which is what the
  main pass finds in those two arrays; the arguments reach the main pass as launched.  So the result array the main
  pass leaves is the layer's result `G` of the four arguments.
-/
import proofs.«157551_j25898652795458_2_alg».proof.Proof.KiRun
import proofs.«157551_j25898652795458_2_alg».proof.Proof.KiVal0
import proofs.«157551_j25898652795458_2_alg».proof.Proof.KiVal1

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (ρ : Dev nD → PrngReg) (c : Dev nD)

/-- The adjacency array reaches the main pass as launched: the degree pass stages it as an input. -/
theorem V1_arg1 : V1 (F := Ideal) m ρ c main_arg1 = m ((c : Thread nD τ).loc main_arg1) :=
  (W1_arr m ρ c 0).trans (((dat0 (V0 m ρ) c).arrAt_in 0 rfl _).trans ((A_eq0 (V0 m ρ) c 0).trans rfl))
/-- The other arguments are no array of the degree pass. -/
theorem V1_arg0 : V1 (F := Ideal) m ρ c main_arg0 = m ((c : Thread nD τ).loc main_arg0) :=
  (W1_of_ne m ρ c main_arg0 (by decide)).trans rfl
theorem V1_arg2 : V1 (F := Ideal) m ρ c main_arg2 = m ((c : Thread nD τ).loc main_arg2) :=
  (W1_of_ne m ρ c main_arg2 (by decide)).trans rfl
theorem V1_arg3 : V1 (F := Ideal) m ρ c main_arg3 = m ((c : Thread nD τ).loc main_arg3) :=
  (W1_of_ne m ρ c main_arg3 (by decide)).trans rfl

variable (hadj : ∀ i, ∃ q : ℝ, m ((c : Thread nD τ).loc main_arg1) i = (q : EReal))
include hadj

/-- The row of factors the main pass finds. -/
theorem V1_col : V1 (F := Ideal) m ρ c main_v0_0 = fun j => Cert.Spec.dinv (m ((c : Thread nD τ).loc main_arg1)) (j 0) (j 2) :=
  (W1_arr m ρ c 1).trans (val0_col (V0 m ρ) c hadj)
/-- The column of factors the main pass finds. -/
theorem V1_row : V1 (F := Ideal) m ρ c main_v0_1 = fun j => Cert.Spec.dinv (m ((c : Thread nD τ).loc main_arg1)) (j 0) (j 1) :=
  (W1_arr m ρ c 2).trans (val0_row (V0 m ρ) c hadj)

/-- The result array the kernel leaves is the layer's result of the arguments. -/
theorem result :
    (dat1 (F := Ideal) (V1 m ρ) c).arrAt 7 cfg1.N
      = Cert.Spec.G (m ((c : Thread nD τ).loc main_arg0)) (m ((c : Thread nD τ).loc main_arg1))
          (m ((c : Thread nD τ).loc main_arg2)) (m ((c : Thread nD τ).loc main_arg3)) := by
  rw [val1 (V1 m ρ) c (by rw [V1_col m ρ c hadj, V1_arg1]) (by rw [V1_row m ρ c hadj, V1_arg1]),
    V1_arg0, V1_arg1, V1_arg2, V1_arg3]

end Cert.KernelIdeal.Val

end
-- ==== Proof.RefLaws.lean ====
/-
  The scalar law of the reference's normalisation, and the reality of a degree.

  The reference forms  p = (deg + ε)^(−1/2)  with the host's power and then sends an infinite p to 0.
  On a REAL base r the power with the real exponent −1/2 is Mathlib's `Real.rpow r (−1/2)`, which is
    r > 0 :  (√r)⁻¹,
    r = 0 :  0          (the convention 0^y = 0 for y ≠ 0),
    r < 0 :  exp (log r · (−1/2)) · cos (−π/2) = 0,
  a real number in every case, so the test "|p| = +∞" fails and the selection returns p itself:
  the result is `dinvR r`.
-/
import proofs.«157551_j25898652795458_2_alg».proof.Proof.Spec

noncomputable section

namespace Cert.RefLaws

open Idealize.ShloMosaic

/-- The word of `-0.5` denotes the real −1/2. -/
theorem ofBits_neg_half : Ideal.ofBits .f32 0xBF000000#32 = (((-1/2 : ℝ)) : EReal) := by
  simp [Ideal.ofBits, Ideal.ieee, -EReal.coe_mul]; norm_num

/-- The word of `+inf` denotes ⊤. -/
theorem ofBits_inf : Ideal.ofBits .f32 0x7F800000#32 = ⊤ := by
  simp [Ideal.ofBits, Ideal.ieee]

/-- The real power −1/2 is the inverse square root on the positive reals and 0 elsewhere. -/
theorem rpow_neg_half (r : ℝ) : Real.rpow r (-1/2) = Cert.Spec.dinvR r := by
  unfold Cert.Spec.dinvR
  rcases lt_trichotomy 0 r with h | h | h
  · rw [if_pos h]
    show r ^ ((-1/2 : ℝ)) = _
    rw [show ((-1/2 : ℝ)) = -(1/2) by ring, Real.rpow_neg h.le, Real.sqrt_eq_rpow]
  · subst h
    rw [if_neg (lt_irrefl _)]
    show (0:ℝ) ^ ((-1/2 : ℝ)) = _
    exact Real.zero_rpow (by norm_num)
  · rw [if_neg (not_lt.mpr h.le)]
    show r ^ ((-1/2 : ℝ)) = _
    rw [Real.rpow_def_of_neg h, show ((-1/2 : ℝ)) * Real.pi = -(Real.pi / 2) by ring, Real.cos_neg,
      Real.cos_pi_div_two, mul_zero]

/-- The reference's normalisation on a real argument: power −1/2, then infinite ↦ 0, is `dinvR`. -/
theorem ref_norm (r : ℝ) :
    Scalar.select
      (Ideal.cmp .oeq (max (Ideal.pow (r : EReal) (Ideal.ofBits .f32 0xBF000000#32)) (-(Ideal.pow (r : EReal) (Ideal.ofBits .f32 0xBF000000#32))))
        (Ideal.ofBits .f32 0x7F800000#32))
      (Ideal.ofBits .f32 0x00000000#32)
      (Ideal.pow (r : EReal) (Ideal.ofBits .f32 0xBF000000#32))
      = ((Cert.Spec.dinvR r : ℝ) : EReal) := by
  have hp : Ideal.pow (r : EReal) (Ideal.ofBits .f32 0xBF000000#32) = ((Cert.Spec.dinvR r : ℝ) : EReal) := by
    rw [ofBits_neg_half, ← rpow_neg_half]; rfl
  rw [hp, ofBits_inf]
  have hne : max ((Cert.Spec.dinvR r : ℝ) : EReal) (-((Cert.Spec.dinvR r : ℝ) : EReal)) ≠ ⊤ := by
    rcases max_choice ((Cert.Spec.dinvR r : ℝ) : EReal) (-((Cert.Spec.dinvR r : ℝ) : EReal)) with h | h <;> rw [h]
    · exact EReal.coe_ne_top _
    · rw [← EReal.coe_neg]; exact EReal.coe_ne_top _
  simp only [Ideal.cmp, Scalar.select, decide_eq_false hne]
  rfl

/-- A finite sum of real numbers, taken in the extended reals, is a real number. -/
theorem sum_real {ι : Type} [DecidableEq ι] (s : Finset ι) (f : ι → EReal) :
    (∀ i ∈ s, ∃ q : ℝ, f i = (q : EReal)) → ∃ r : ℝ, ∑ i ∈ s, f i = (r : EReal) := by
  refine Finset.induction_on s (fun _ => ⟨0, by simp⟩) ?_
  intro a s ha ih hf
  obtain ⟨r, hr⟩ := ih (fun i hi => hf i (Finset.mem_insert_of_mem hi))
  obtain ⟨q, hq⟩ := hf a (Finset.mem_insert_self a s)
  exact ⟨q + r, by rw [Finset.sum_insert ha, hq, hr, EReal.coe_add]⟩

/-- The small number added to a degree is a real number. -/
theorem eps_real : ∃ e : ℝ, Cert.Spec.eps = (e : EReal) := by
  have h1 : Cert.Spec.eps ≠ ⊤ := by
    simp [Cert.Spec.eps, Ideal.ofBits, Ideal.ieee]
    rw [← EReal.coe_mul]; exact EReal.coe_ne_top _
  have h2 : Cert.Spec.eps ≠ ⊥ := by
    simp [Cert.Spec.eps, Ideal.ofBits, Ideal.ieee]
    rw [← EReal.coe_mul]; exact EReal.coe_ne_bot _
  exact ⟨Cert.Spec.eps.toReal, (EReal.coe_toReal h1 h2).symm⟩

/-- A degree of a real array, plus ε, is a real number. -/
theorem deg_add_eps_real (adj : Cert.Spec.SA.Idx → EReal) (hadj : ∀ i, ∃ q : ℝ, adj i = (q : EReal))
    (b : Fin 8) (n : Fin 2048) : ∃ r : ℝ, Cert.Spec.deg adj b n + Cert.Spec.eps = (r : EReal) := by
  obtain ⟨d, hd⟩ := sum_real Finset.univ (fun k : Fin 2048 => adj (ValueIdx.ix3 b n k)) (fun k _ => hadj _)
  obtain ⟨e, he⟩ := eps_real
  exact ⟨d + e, by unfold Cert.Spec.deg; rw [hd, he, EReal.coe_add]⟩

end Cert.RefLaws

end
-- ==== Proof.RefValue.lean ====
/-
  The reference program's result is the specification `G`.

  The reference computes, for batch b, node n, feature o:
    the row degree  Σ_k adj[b,n,k]  (a sum started at the zero word), plus ε;
    p = that number to the power −1/2, and "infinite ↦ 0": on a real degree this is `dinv adj b n`
      (the scalar law is in RefLaws);
    the normalised entry  adj[b,n,m] · dinv b n · dinv b m  (two broadcasts of the same vector, one
      along the columns and one along the rows);
    the linear layer  Σ_i x[b,m,i] · W[o,i] + bias[o];
    the contraction over m of the two, plus the residual x[b,n,o], and the maximum with the zero word.
  Each stage is read at an index; the composed index maps are the coordinate constructors.
-/
import proofs.«157551_j25898652795458_2_alg».proof.Proof.Gen.ReferenceIdeal.Read
import proofs.«157551_j25898652795458_2_alg».proof.Proof.Spec
import proofs.«157551_j25898652795458_2_alg».proof.Proof.RefLaws

noncomputable section

namespace Cert.ReferenceIdeal.RefValue

open Idealize.ShloMosaic Idealize.ShloMosaic.ValueIdx Cert.ReferenceIdeal Cert.ReferenceIdeal.Read

/-- The degree stage plus ε, at node `n` of batch `b`, is `deg adj b n + eps`. -/
theorem base_eq (adj : FVec Ideal S8x2048x2048 .f32) (b : Fin 8) (n : Fin 2048) :
    val_main_v2 (F := Ideal) adj (ix2 b n) = Cert.Spec.deg adj b n + Cert.Spec.eps := by
  rw [val_main_v2_apply, val_main_v0_apply, val_main_v1_apply, val_main_cst_apply, val_main_cst_0_apply]
  simp only [Ideal.addf_def, Ideal.ofBits_def, Ideal.ofBits_zero_f32, zero_add]
  unfold Cert.Spec.deg Cert.Spec.eps
  refine congrArg (· + Ideal.ofBits .f32 0x358637BD#32) (Finset.sum_congr rfl fun k _ => congrArg adj ?_)
  exact funext fun a => Fin.ext (by match a with | ⟨0, _⟩ => rfl | ⟨1, _⟩ => rfl | ⟨2, _⟩ => rfl)

/-- The normalisation stage (power −1/2, infinite ↦ 0) at node `n` of batch `b` is `dinv adj b n`. -/
theorem norm_eq (adj : FVec Ideal S8x2048x2048 .f32) (hadj : ∀ i, ∃ q : ℝ, adj i = (q : EReal)) (b : Fin 8) (n : Fin 2048) :
    val_main_v6 (F := Ideal) adj (ix2 b n) = Cert.Spec.dinv adj b n := by
  obtain ⟨r, hr⟩ := Cert.RefLaws.deg_add_eps_real adj hadj b n
  rw [val_main_v6_apply, val_main_v5_apply, val_main_call0_v0_apply, val_main_call0_v1_apply, val_main_call0_cst_apply,
    val_main_call1_v1_apply, val_main_call1_v0_apply, val_main_cst_2_apply, val_main_v4_apply, base_eq, val_main_v3_apply,
    val_main_cst_1_apply]
  unfold Cert.Spec.dinv
  rw [hr, EReal.toReal_coe]
  exact Cert.RefLaws.ref_norm r

/-- The normalised adjacency entry. -/
theorem nadj_eq (adj : FVec Ideal S8x2048x2048 .f32) (hadj : ∀ i, ∃ q : ℝ, adj i = (q : EReal)) (b : Fin 8) (n m : Fin 2048) :
    val_main_v12 (F := Ideal) adj (ix3 b n m)
      = adj (ix3 b n m) * Cert.Spec.dinv adj b n * Cert.Spec.dinv adj b m := by
  have e8 : idx_main_v7 (idx_main_v8 (ix3 b n m)) = ix2 b n :=
    funext fun a => Fin.ext (by match a with | ⟨0, _⟩ => rfl | ⟨1, _⟩ => rfl)
  have e11 : idx_main_v10 (idx_main_v11 (ix3 b n m)) = ix2 b m :=
    funext fun a => Fin.ext (by match a with | ⟨0, _⟩ => rfl | ⟨1, _⟩ => rfl)
  rw [val_main_v12_apply, val_main_v9_apply, val_main_v8_apply, val_main_v7_apply, val_main_v11_apply, val_main_v10_apply,
    e8, e11, norm_eq adj hadj b n, norm_eq adj hadj b m]
  rfl

/-- The linear layer. -/
theorem sup_eq (x : FVec Ideal S8x2048x256 .f32) (W : FVec Ideal S256x256 .f32) (bias : FVec Ideal S256 .f32)
    (b : Fin 8) (m : Fin 2048) (o : Fin 256) :
    val_main_v16 (F := Ideal) x W bias (ix3 b m o) = Cert.Spec.sup x W bias b m o := by
  have e3 : idx_main_v14 (idx_main_v15 (ix3 b m o)) = ix1 o :=
    funext fun a => Fin.ext (by match a with | ⟨0, _⟩ => rfl)
  rw [val_main_v16_apply, val_main_v13_apply, val_main_v15_apply, val_main_v14_apply, e3]
  unfold Cert.Spec.sup
  refine congrArg (· + bias (ix1 o)) (Finset.sum_congr rfl fun i _ => ?_)
  have e1 : lidx_main_v13 (ix3 b m o) i = ix3 b m i :=
    funext fun a => Fin.ext (by match a with | ⟨0, _⟩ => rfl | ⟨1, _⟩ => rfl | ⟨2, _⟩ => rfl)
  have e2 : ridx_main_v13 (ix3 b m o) i = ix2 o i :=
    funext fun a => Fin.ext (by match a with | ⟨0, _⟩ => rfl | ⟨1, _⟩ => rfl)
  rw [e1, e2]

/-- The reference's result array is `G` of its four arguments, when every adjacency entry is a real number. -/
theorem ref_eq (x : FVec Ideal Cert.ReferenceIdeal.S8x2048x256 .f32) (adj : FVec Ideal Cert.ReferenceIdeal.S8x2048x2048 .f32)
    (W : FVec Ideal Cert.ReferenceIdeal.S256x256 .f32) (bias : FVec Ideal Cert.ReferenceIdeal.S256 .f32)
    (hadj : ∀ i, ∃ q : ℝ, adj i = (q : EReal)) :
    Cert.ReferenceIdeal.Read.val_main_v19 (F := Ideal) x adj W bias = Cert.Spec.G x adj W bias := by
  funext j
  obtain ⟨b, n, o, rfl⟩ : ∃ (b : Fin 8) (n : Fin 2048) (o : Fin 256), j = ix3 b n o := ⟨j 0, j 1, j 2, eq_ix3 j⟩
  rw [val_main_v19_apply, val_main_v18_apply, val_main_v17_apply, val_main_call2_v0_apply, val_main_call2_cst_apply]
  simp only [Ideal.maximumf_def, Ideal.addf_def, Ideal.ofBits_def, Ideal.ofBits_zero_f32]
  rw [show Cert.Spec.G x adj W bias (ix3 b n o) = Cert.Spec.out x adj W bias b n o from rfl]
  unfold Cert.Spec.out
  refine congrArg (fun s => max (s + x (ix3 b n o)) 0) (Finset.sum_congr rfl fun m _ => ?_)
  have el : lidx_main_v17 (ix3 b n o) m = ix3 b n m :=
    funext fun a => Fin.ext (by match a with | ⟨0, _⟩ => rfl | ⟨1, _⟩ => rfl | ⟨2, _⟩ => rfl)
  have er : ridx_main_v17 (ix3 b n o) m = ix3 b m o :=
    funext fun a => Fin.ext (by match a with | ⟨0, _⟩ => rfl | ⟨1, _⟩ => rfl | ⟨2, _⟩ => rfl)
  rw [el, er, nadj_eq adj hadj b n m, sup_eq x W bias b m o]

end Cert.ReferenceIdeal.RefValue

end
-- ==== Proof.Finite.lean ====
/-
  From the precondition "every float input is finite" to "every entry of the adjacency array is a real number".

  The printed precondition is a conjunction of four tests, one per argument, each of the form
  "all (|a| < +∞)".  The conjunction being 1 makes the second test 1, a reduction by `and` over every
  index that came out 1 had a 1 at every index, and |a| < ⊤ on the extended reals excludes both infinities.
-/
import proofs.«157551_j25898652795458_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- An extended real whose absolute value is below the word of `+inf` is a real number. -/
theorem real_of_abs_lt (a : EReal)
    (h : Ideal.cmp .olt (max a (-a)) (Ideal.ofBits .f32 0x7F800000#32) = 1#1) : ∃ q : ℝ, a = (q : EReal) := by
  have htop : Ideal.ofBits .f32 0x7F800000#32 = ⊤ := by simp [Ideal.ofBits, Ideal.ieee]
  rw [htop] at h
  induction a using EReal.rec with
  | bot => simp [Ideal.cmp] at h
  | coe q => exact ⟨q, rfl⟩
  | top => simp [Ideal.cmp] at h

theorem adj_real [Cert.Pre_finite_inputs.Facts] (x : FVec Ideal Cert.Pre_finite_inputs.S8x2048x256 .f32)
    (adj : FVec Ideal Cert.Pre_finite_inputs.S8x2048x2048 .f32) (W : FVec Ideal Cert.Pre_finite_inputs.S256x256 .f32)
    (bias : FVec Ideal Cert.Pre_finite_inputs.S256 .f32)
    (h : Cert.Pre_finite_inputs.fn (F := Ideal) x adj W bias = fun _ => 1#1) : ∀ i, ∃ q : ℝ, adj i = (q : EReal) := by
  intro i
  have h0 := congrFun h ValueIdx.ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).2
  have h4 := Host.reduce_andi_all _ _ _ _ _ h3 i
  exact real_of_abs_lt (adj i) h4

end Cert.Finite

end
-- ==== Proof.lean ====
/-
  The five claims about a graph-convolution layer  relu( (D^(-1/2) A D^(-1/2)) · (X Wᵀ + b) + X ).

  The kernel computes it in two launches: a degree pass (row sums of A, their inverse square roots with the
  non-positive ones sent to 0, delivered as a row and as a column) and a main pass that, per batch, fills a scratch
  buffer with X Wᵀ + b once and then, for each block of 256 rows, scales A's block by its row and column factors,
  multiplies it with the scratch buffer, adds the residual rows and clamps at zero.  The reference is plain jnp.

  * The three frames: each program runs to the end, faults nowhere and leaves its arguments unchanged.  For the two
    kernel programs (the same text read at words and at extended reals) this is the run of both launches as pipeline
    regions; for the reference it is its run as a list of host operations.
  * The idealization rewrote nothing, so there is nothing to preserve.
  * At the extended reals both programs end at ONE function of the arguments, index by index: every sum is over the
    same index set on both sides (a whole row of A at once; a whole row of X at once), and the only step spelt
    differently — reciprocal square root against power −1/2, each followed by "infinite ↦ 0" — agrees on every real
    argument, which is where the finiteness of the adjacency entries is used.
-/
import proofs.«157551_j25898652795458_2_alg».proof.Defs
import proofs.«157551_j25898652795458_2_alg».proof.Proof.Gen.Kernel
import proofs.«157551_j25898652795458_2_alg».proof.Proof.Gen.KernelIdeal
import proofs.«157551_j25898652795458_2_alg».proof.Proof.Gen.ReferenceIdeal
import proofs.«157551_j25898652795458_2_alg».proof.Proof.Gen.ReferenceIdeal.Run
import proofs.«157551_j25898652795458_2_alg».proof.Proof.Gen.ReferenceIdeal.Read
import proofs.«157551_j25898652795458_2_alg».proof.Proof.Gen.Pre_finite_inputs
import proofs.«157551_j25898652795458_2_alg».proof.Proof.KbRun
import proofs.«157551_j25898652795458_2_alg».proof.Proof.KiRun
import proofs.«157551_j25898652795458_2_alg».proof.Proof.KiValue
import proofs.«157551_j25898652795458_2_alg».proof.Proof.RefValue
import proofs.«157551_j25898652795458_2_alg».proof.Proof.Finite
import Idealize.ShloMosaic.Adequacy
import Idealize.ShloMosaic.Init

noncomputable section

namespace Cert.Proof

open Idealize.ShloMosaic Idealize.ShloMosaic.TcCoe Idealize.SL.Sem

namespace Claims

variable [hPre : Cert.Pre_finite_inputs.Facts]

theorem frame_k [Cert.Kernel.Facts] : Cert.frame_Kernel := fun m ρ _ =>
  (θ_run Cert.Kernel.defs _ _).mono (fun _ h c => (h c).2) (Cert.Kernel.Fr.run_all (F := Bits) m ρ)

theorem frame_ki [Cert.KernelIdeal.Facts] : Cert.frame_KernelIdeal := fun m ρ _ =>
  (θ_run Cert.KernelIdeal.defs _ _).mono (fun _ h c => (h c).2) (Cert.KernelIdeal.Fr.run_all (F := Ideal) m ρ)

theorem frame_ri [Cert.ReferenceIdeal.Facts] : Cert.frame_ReferenceIdeal := fun m ρ _ =>
  (θ_run Cert.ReferenceIdeal.defs _ _).mono (fun _ h c => (h c).2) (Cert.ReferenceIdeal.Value.run (F := Ideal) m ρ)

/-- Both runs end at the layer's result of the (agreeing) arguments. -/
theorem algebraic [Cert.KernelIdeal.Facts] [Cert.ReferenceIdeal.Facts] : Cert.algebraic_KernelIdeal_ReferenceIdeal := by
  intro m ρ m' ρ' hpre hagree
  have hadj : ∀ c : Dev Cert.KernelIdeal.nD, ∀ i, ∃ q : ℝ,
      m ((c.tc : Thread Cert.KernelIdeal.nD Cert.KernelIdeal.τ).loc Cert.KernelIdeal.main_arg1) i = (q : EReal) :=
    fun c => Cert.Finite.adj_real _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Val.result m ρ c (hadj c)), (h c).2⟩)
      (Cert.KernelIdeal.Fr.run_all (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v19_eq, (hagree c).1, (hagree c).2.1, (hagree c).2.2.1, (hagree c).2.2.2]
    exact Cert.ReferenceIdeal.RefValue.ref_eq _ _ _ _ (hadj c)

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
